-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x10 : Shape := ⟨2, ![256, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S256x10 1) : IVec S_ 1 :=
  let main_c_5 : IVec S_ 1 := constantI S_ 1 1#1
  let main_v17 : IVec S_ 1 := (fun x v => Host.reduce IntOp.andi x v reducesTo_S256x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x10 .f32) (main_arg3 : FVec F S10 .f32) (main_arg4 : FVec F S256x10 .f32) (main_arg5 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x10 .f32 := Host.absf main_arg2
  let main_cst_0 : FVec F S_ .f32 := constant S_ .f32 0x7F800000#32
  let main_v5 : FVec F S256x10 .f32 := broadcastInDim S256x10 ![] bcast_S_S256x10 main_cst_0
  let main_v6 : IVec S256x10 1 := cmpf .olt main_v4 main_v5
  let main_c_1 : IVec S_ 1 := constantI S_ 1 1#1
  let main_v7 : IVec S_ 1 := (fun x v => Host.reduce IntOp.andi x v reducesTo_S256x10_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S256x10 .f32 := Host.absf main_arg4
  let main_cst_4 : FVec F S_ .f32 := constant S_ .f32 0x7F800000#32
  let main_v15 : FVec F S256x10 .f32 := broadcastInDim S256x10 ![] bcast_S_S256x10 main_cst_4
  let main_v16 : IVec S256x10 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x10 : Shape := ⟨2, ![256, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S256x20 : Shape := ⟨2, ![256, 20]⟩
abbrev S100000x20 : Shape := ⟨2, ![100000, 20]⟩
abbrev S8192x256 : Shape := ⟨2, ![8192, 256]⟩
abbrev S8192x20 : Shape := ⟨2, ![8192, 20]⟩
abbrev S100000x1 : Shape := ⟨2, ![100000, 1]⟩
abbrev S3200000x20 : Shape := ⟨2, ![3200000, 20]⟩
abbrev S100000x10 : Shape := ⟨2, ![100000, 10]⟩
abbrev S1x10 : Shape := ⟨2, ![1, 10]⟩

abbrev nBuf : Space → Nat
  | .hbm => 53
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x10, .f32⟩
  | .hbm, ⟨3, _⟩ => ⟨S10, .f32⟩
  | .hbm, ⟨4, _⟩ => ⟨S256x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S256x20, .f32⟩
  | .hbm, ⟨24, _⟩ => ⟨S100000x20, .f32⟩
  | .hbm, ⟨25, _⟩ => ⟨S100000x1, .f32⟩
  | .hbm, ⟨26, _⟩ => ⟨S100000x20, .f32⟩
  | .hbm, ⟨27, _⟩ => ⟨S100000x20, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x20, .f32⟩
  | .hbm, ⟨37, _⟩ => ⟨S_, .f32⟩
  | .hbm, ⟨38, _⟩ => ⟨S100000x20, .f32⟩
  | .hbm, ⟨39, _⟩ => ⟨S3200000x1, .i32⟩
  | .hbm, ⟨40, _⟩ => ⟨S100000x20, .f32⟩
  | .hbm, ⟨41, _⟩ => ⟨S100000x1, .f32⟩
  | .hbm, ⟨42, _⟩ => ⟨S100000x20, .f32⟩
  | .hbm, ⟨43, _⟩ => ⟨S100000x20, .f32⟩
  | .hbm, ⟨44, _⟩ => ⟨S100000x20, .f32⟩
  | .hbm, ⟨45, _⟩ => ⟨S100000x10, .f32⟩
  | .hbm, ⟨46, _⟩ => ⟨S1x10, .f32⟩
  | .hbm, ⟨47, _⟩ => ⟨S100000x10, .f32⟩
  | .hbm, ⟨48, _⟩ => ⟨S100000x10, .f32⟩
  | .hbm, ⟨49, _⟩ => ⟨S100000x10, .f32⟩
  | .hbm, ⟨50, _⟩ => ⟨S1x10, .f32⟩
  | .hbm, ⟨51, _⟩ => ⟨S100000x10, .f32⟩
  | .hbm, ⟨52, _⟩ => ⟨S100000x10, .f32⟩
  | .local _ .vmem, ⟨0, _⟩ => ⟨S8192x256, .f32⟩
  | .local _ .vmem, ⟨1, _⟩ => ⟨S8192x256, .f32⟩
  | .local _ .vmem, ⟨2, _⟩ => ⟨S256x20, .f32⟩
  | .local _ .vmem, ⟨3, _⟩ => ⟨S8192x20, .f32⟩
  | .local _ .vmem, ⟨4, _⟩ => ⟨S8192x20, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S256x10_S256x10_S256x20_d1 : Shape.Concatenates [S256x10, S256x10] S256x20 1
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S8192x20_S8192x20_0_0 : ∀ a, (![0, 0] : Fin 2 → Nat) a + S8192x20.size a ≤ S8192x20.size a
  h_S8192x20 : 0 < S8192x20.numel
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S_S100000x20 : S_.BroadcastsInDim S100000x20 (![] : Fin 0 → Fin S100000x20.rank)
  slices_S100000x20_S100000x10_0_0 : S100000x20.Slices ![0, 0] S100000x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  slices_S100000x20_S100000x10_0_10 : S100000x20.Slices ![0, 10] S100000x10
  scatter_S100000_S3200000x1_S3200000_n_0_0_1_wf : ScatterDims.WF S100000 S3200000x1 S3200000 [] [0] [0] 1
  dot_S8192x256_S256x20_S8192x20_1_0_0_1_n_n_wf : DotDims.WF S8192x256 S256x20 S8192x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x256.size a < S100000x256.size a
  hwx0_0 : ∀ i : grid0.Coords, EltTy.bits .f32 = 32 ∨ (Rect.unit (s := S100000x256) (fun a => cc0_transform_0 i a * S8192x256.size a) (fun a => (Pipeline.Clip.of (cc0_transform_0 i a) (S8192x256.size a) (S100000x256.size a)).extent (S8192x256.size a)) fun a => Pipeline.Clip.inb (Pipeline.Clip.ok_of (hstart0_0 i a))).WholeWords (EltTy.packing .f32)
  hwxs0_0 : ∀ i : grid0.Coords, EltTy.bits .f32 = 32 ∨ (Rect.unit (s := S8192x256) (fun _ => 0) (fun a => (Pipeline.Clip.of (cc0_transform_0 i a) (S8192x256.size a) (S100000x256.size a)).extent (S8192x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x20.size a ≤ S256x20.size a
  hwx0_1 : ∀ i : grid0.Coords, EltTy.bits .f32 = 32 ∨ (Rect.block (s := S256x20) S256x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x20.size a < S100000x20.size a
  hwx0_2 : ∀ i : grid0.Coords, EltTy.bits .f32 = 32 ∨ (Rect.unit (s := S100000x20) (fun a => cc0_transform_2 i a * S8192x20.size a) (fun a => (Pipeline.Clip.of (cc0_transform_2 i a) (S8192x20.size a) (S100000x20.size a)).extent (S8192x20.size a)) fun a => Pipeline.Clip.inb (Pipeline.Clip.ok_of (hstart0_2 i a))).WholeWords (EltTy.packing .f32)
  hwxs0_2 : ∀ i : grid0.Coords, EltTy.bits .f32 = 32 ∨ (Rect.unit (s := S8192x20) (fun _ => 0) (fun a => (Pipeline.Clip.of (cc0_transform_2 i a) (S8192x20.size a) (S100000x20.size a)).extent (S8192x20.size a)) fun a => (Nat.zero_add _).trans_le (Pipeline.Clip.extent_le (Pipeline.Clip.ok_of (hstart0_2 i a)))).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S8192x256_S256x20_S8192x20_1_0_0_1_n_n : DotDims S8192x256 S256x20 S8192x20 where
  lhsContracting := [1]
  rhsContracting := [0]
  lhsNonContracting := [0]
  rhsNonContracting := [1]
  lhsBatch := []
  rhsBatch := []
  wf := dot_S8192x256_S256x20_S8192x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf

abbrev win0_0 : Pipeline.Window sig grid0 :=
  Pipeline.Window.ofSpecClip (Memref.whole main_arg0) S8192x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v13) S256x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v14) S8192x20.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x10 : Shape := ⟨2, ![256, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x10 : Shape := ⟨2, ![100000, 10]⟩
abbrev S3300000x10 : Shape := ⟨2, ![3300000, 10]⟩
abbrev S1x10 : Shape := ⟨2, ![1, 10]⟩

abbrev nBuf : Space → Nat
  | .hbm => 82
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x10, .f32⟩
  | .hbm, ⟨3, _⟩ => ⟨S10, .f32⟩
  | .hbm, ⟨4, _⟩ => ⟨S256x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x10, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x10, .f32⟩
  | .hbm, ⟨52, _⟩ => ⟨S3300000x1, .f32⟩
  | .hbm, ⟨53, _⟩ => ⟨S3300000x10, .f32⟩
  | .hbm, ⟨54, _⟩ => ⟨S3300000x10, .f32⟩
  | .hbm, ⟨55, _⟩ => ⟨S_, .f32⟩
  | .hbm, ⟨56, _⟩ => ⟨S100000x10, .f32⟩
  | .hbm, ⟨57, _⟩ => ⟨S3300000x1, .i32⟩
  | .hbm, ⟨58, _⟩ => ⟨S100000x10, .f32⟩
  | .hbm, ⟨59, _⟩ => ⟨S1x10, .f32⟩
  | .hbm, ⟨60, _⟩ => ⟨S100000x10, .f32⟩
  | .hbm, ⟨61, _⟩ => ⟨S100000x10, .f32⟩
  | .hbm, ⟨62, _⟩ => ⟨S100000x10, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x10, .f32⟩
  | .hbm, ⟨72, _⟩ => ⟨S3300000x1, .f32⟩
  | .hbm, ⟨73, _⟩ => ⟨S3300000x10, .f32⟩
  | .hbm, ⟨74, _⟩ => ⟨S3300000x10, .f32⟩
  | .hbm, ⟨75, _⟩ => ⟨S_, .f32⟩
  | .hbm, ⟨76, _⟩ => ⟨S100000x10, .f32⟩
  | .hbm, ⟨77, _⟩ => ⟨S3300000x1, .i32⟩
  | .hbm, ⟨78, _⟩ => ⟨S100000x10, .f32⟩
  | .hbm, ⟨79, _⟩ => ⟨S1x10, .f32⟩
  | .hbm, ⟨80, _⟩ => ⟨S100000x10, .f32⟩
  | .hbm, ⟨81, _⟩ => ⟨S100000x10, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x10_S100000x10_1_0_0_1_n_n_wf : DotDims.WF S100000x256 S256x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x10_S100000x10_1_0_0_1_n_n : DotDims S100000x256 S256x10 S100000x10 where
  lhsContracting := [1]
  rhsContracting := [0]
  lhsNonContracting := [0]
  rhsNonContracting := [1]
  lhsBatch := []
  rhsBatch := []
  wf := dot_S100000x256_S256x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelFrameBody.lean ====
/-
  The kernel body as a triple on whole staging memrefs.  The body loads its first two
  arguments whole, loads the third (a value nothing uses), and stores a function of the two loaded
  values over the whole third.  So: holding the first two at any contents and the third at some
  contents, it runs to a state holding the first two unchanged and the third again at some contents.
  Nothing is said of what the third holds afterwards.
-/
import proofs.«168765_j85907935854601_2_alg».proof.Proof.Gen.Kernel.Frame
import proofs.«168765_j85907935854601_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple: the two inputs' memrefs are handed back at the contents they had, the output's at
    some contents. -/
theorem kernelRun (c : Dev nD) (i : grid0.Coords)
    (arg1 : Memref sig .tc .vmem S8192x256 .f32) (harg1 : arg1.IsWhole)
    (arg2 : Memref sig .tc .vmem S256x20 .f32) (harg2 : arg2.IsWhole)
    (arg3 : Memref sig .tc .vmem S8192x20 .f32) (harg3 : arg3.IsWhole)
    (x0 : Vec F S8192x256 .f32) (x1 : Vec F S256x20 .f32) :
    ∀ (E : Set ℕ) (K : PUnit → sProp 𝕄),
      iprop(owns (c : Thread nD τ) arg1 fullShare x0 ∗ owns (c : Thread nD τ) arg2 fullShare x1
          ∗ (∃ d, owns (c : Thread nD τ) arg3 fullShare d)
          ∗ (iprop(owns (c : Thread nD τ) arg1 fullShare x0 ∗ owns (c : Thread nD τ) arg2 fullShare x1
              ∗ (∃ d, owns (c : Thread nD τ) arg3 fullShare d)) -∗ K ⟨⟩))
        ⊢ wp frame (wpE (defs₀ (F := F)) Variants.none c none) E (cc0__linear_kernel i arg1 harg1 arg2 harg2 arg3 harg3) K := by
  intro E K
  simp only [cc0__linear_kernel_eq_skeleton]; unfold cc0__linear_kernel_skel
  unfold owns
  iintro ⟨⟨%f0, %hf0, H0⟩, ⟨%f1, %hf1, H1⟩, ⟨%d2, %f2, -, H2⟩, Hk⟩
  obtain rfl := harg1.eq_unread hf0
  obtain rfl := harg2.eq_unread hf1
  sl_exec
  sl_step
  iapply Hk
  isplitl [H0]
  · iexists _; isplitr; · ipureintro; exact hf0
    iexact H0
  isplitl [H1]
  · iexists _; isplitr; · ipureintro; exact hf1
    iexact H1
  iexists _, _; isplitr; swap; · iexact H2
  ipureintro; rfl

end Cert.Kernel.Hand

end
-- ==== Proof.KernelFrame.lean ====
/-
  The frame of the word-level program: its run terminates and leaves its six argument arrays as launched.

  The program is host operations, one pipelined region, host operations.  The region's first window (the
  activations, in row blocks whose last one overhangs the array) and second window (the weights, fetched once)
  are inputs; its third window is the result, written back block by block.  What the body computes into the
  result's staging buffer is a function of the WHOLE first staging buffer, whose rows past the array's end
  hold words nothing names; so the result's contents are not named here at all: the third window is
  forgotten, and the run is read through relational proof data.  The frame then needs only that the body
  hands the two inputs' staging buffers back as it found them, and that the operations after the region
  write none of the argument arrays.
-/
import proofs.«168765_j85907935854601_2_alg».proof.Proof.KernelFrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result's window is forgotten. -/
def forgets0 : Fin 3 → Bool := fun w => w.val == 2

/-- The proof data on core `c`: the arrays as the region finds them; after the body the first window's buffer
    holds its block on the rows inside the array (past them a word nothing reads), the second window's its
    block, the third's is not named. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (fun _ => Classical.arbitrary _) (iblk m c 0 t)
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = (cfg0.win 0).fill (cfg0.grid.coords t) (fun _ => Classical.arbitrary _) (iblk m c 0 t) := by
  dsimp only [dats]

theorem after0_1 (c : Dev nD) (t : Fin cfg0.N) : (dats m 0 c).after 1 t = iblk m c 1 t := by dsimp only [dats]

/-- The weights' buffer holds the weights at every point (fetched at the first, untouched since). -/
theorem before0_1 (c : Dev nD) (t : Fin cfg0.N) (d) : (dats m 0 c).before 1 t d = iblk m c 1 t :=
  before0_1_of m (dats m 0 c) (A_eq m c 1) (after0_1 m c) t d

/-- The activations' buffer is fetched at every point: it holds the block on the rows inside the array and
    `d` past them — which is what the obligation asks it be handed back at. -/
theorem before0_0 (c : Dev nD) (t : Fin cfg0.N) (d) :
    (dats m 0 c).before 0 t d
      = (cfg0.win 0).fill (cfg0.grid.coords t) d ((cfg0.win 0).cut (cfg0.grid.coords t) ((dats m 0 c).after 0 t)) := by
  unfold Dat.before
  rw [if_pos (fetch0_0 t), after0_0, Window.cut_fill]
  unfold Dat.fetched Dat.blockOf iblk
  rw [A_eq]

/-! ## The body obligation -/

abbrev ms0 (t : Fin cfg0.N) : Memref sig .tc .vmem S8192x256 .f32 := win0_0.stage (cfg0.slots t 0)
abbrev ms1 (t : Fin cfg0.N) : Memref sig .tc .vmem S256x20 .f32 := win0_1.stage (cfg0.slots t 1)
abbrev ms2 (t : Fin cfg0.N) : Memref sig .tc .vmem S8192x20 .f32 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ X, owns (c : Thread nD τ) (ms2 t) fullShare X))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0 t) fullShare
        ((cfg0.win 0).fill (cfg0.grid.coords t) d ((cfg0.win 0).cut (cfg0.grid.coords t) ((dats m 0 c).after 0 t))))
    ∗ owns (c : Thread nD τ) (ms1 t) fullShare ((dats m 0 c).after 1 t)
    ∗ (∃ X, owns (c : Thread nD τ) (ms2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1]
  rw [show (dats m 0 c).Φ t.succ = (dats m 0 c).Φ t.castSucc from rfl,
    show (dats m 0 c).owesAt () t.succ = (dats m 0 c).owesAt () t.castSucc from rfl,
    after0_1]
  iintro ⟨HΦ, Ho, ⟨%d0, H0⟩, ⟨%d1, H1⟩, ⟨%X2, H2⟩⟩
  iapply ((kernelRun c (grid0.coords t) _ _ _ _ _ _ ((dats m 0 c).before 0 t d0) (iblk m c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [← before0_0 m c t d0]; iexact H0
  isplitl [H1]; · iexact H1
  iexact H2

theorem body_obligation (c : Dev nD) :
    BodyObligationLoose (dats (F := F) m 0 c) (defs₀ (F := F)) Variants.none () Set.univ forgets0 := fun t => by
  rw [bigSep_W0, bigSep_W0]
  exact sound_body m c t

/-! ## The operations after the region -/

/-- The buffers the operations after the region write: each its own result. -/
def T : Finset (Ref sig .tc) := {main_v15, main_v16, main_v17, main_c, main_v18, main_v19, main_c_3, main_v20, main_v21, main_v22, main_v23, main_v24, main_cst_4, main_v25, main_v26, main_v27, main_v28, main_v29, main_v30, main_v31, main_v32, main_v33, main_v34, main_v35, main_v36, main_v37, main_v38, main_v39}

theorem not_mem_T_arg1 : main_arg1 ∉ T := by decide
theorem not_mem_T_arg2 : main_arg2 ∉ T := by decide
theorem not_mem_T_arg3 : main_arg3 ∉ T := by decide
theorem not_mem_T_arg4 : main_arg4 ∉ T := by decide
theorem not_mem_T_arg5 : main_arg5 ∉ T := by decide

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes,
      StableHlo.quaternary_writes, StableHlo.reshape_writes, StableHlo.binaryIndexed_writes, Finset.mem_singleton] at hb
    obtain rfl := Proc.devRef_injective _ hb
    decide

/-! ## The run and the frame -/

set_option backward.isDefEq.respectTransparency.types false in
/-- Every weakly fair execution terminates; at the end the activations' array holds what it held when the region
    was entered, and every buffer that bypasses the region and that no later operation writes likewise. -/
theorem run_main : θ_run defs (onTc (τ := τ) (main (F := F))) (s₀ m ρ)
    (Pipeline.RDat.FramePostR (cfgs 0) (fun c => (dats m 0 c).toRForget forgets0) T (V m)) :=
  Pipeline.RDat.θ_run_frame_around_T cfgs (0 : Fin 1) launch0 defs₀ Variants.none (fun c => (dats m 0 c).toRForget forgets0) T m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame: the six argument arrays end as launched.  The activations are an input window's array; the other
    five bypass the region, no operation after it writes them, and none before it does either. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun (((dats m 0 c).toRForget forgets0).ArrAt_in 0 rfl _) _) ((h c).1 0)).trans ((A_eq m c 0).trans (V_main_arg0 m c)),
      ((h c).2 main_arg1 (Finset.mem_sdiff.mpr ⟨Pipeline.mem_restRefs_of main_arg1 (by decide) (by decide), not_mem_T_arg1⟩)).trans (V_main_arg1 m c),
      ((h c).2 main_arg2 (Finset.mem_sdiff.mpr ⟨Pipeline.mem_restRefs_of main_arg2 (by decide) (by decide), not_mem_T_arg2⟩)).trans (V_main_arg2 m c),
      ((h c).2 main_arg3 (Finset.mem_sdiff.mpr ⟨Pipeline.mem_restRefs_of main_arg3 (by decide) (by decide), not_mem_T_arg3⟩)).trans (V_main_arg3 m c),
      ((h c).2 main_arg4 (Finset.mem_sdiff.mpr ⟨Pipeline.mem_restRefs_of main_arg4 (by decide) (by decide), not_mem_T_arg4⟩)).trans (V_main_arg4 m c),
      ((h c).2 main_arg5 (Finset.mem_sdiff.mpr ⟨Pipeline.mem_restRefs_of main_arg5 (by decide) (by decide), not_mem_T_arg5⟩)).trans (V_main_arg5 m c)⟩) (run_main m ρ)

end Cert.Kernel.Hand

end
-- ==== Proof.KiBody.lean ====
/-
  The body of the row-block product kernel, run once on whole staging buffers: two whole loads, the product of the
  loaded blocks, one whole store.
-/
import proofs.«168765_j85907935854601_2_alg».proof.Proof.Gen.KernelIdeal.Frame
import proofs.«168765_j85907935854601_2_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its staging buffer -/

abbrev rX : Rect S8192x256 := Rect.unit (s := S8192x256) ![0, 0] S8192x256.size inb_S8192x256_S8192x256_0_0
abbrev rW : Rect S256x20 := Rect.unit (s := S256x20) ![0, 0] S256x20.size inb_S256x20_S256x20_0_0
abbrev rO : Rect S8192x20 := Rect.unit (s := S8192x20) ![0, 0] S8192x20.size inb_S8192x20_S8192x20_0_0

/-- What the body leaves in the result's staging buffer, from what the two input buffers hold: its one store,
    the product of the two loaded blocks. -/
def outBlk (x0 : Vec F S8192x256 .f32) (x1 : Vec F S256x20 .f32) : Vec F S8192x20 .f32 :=
  View.canon [⟨rO, k0_pay1 (View.ld x0 rX) (View.ld x1 rW)⟩]

/-- The one store is of the whole buffer. -/
theorem cover_out (p0 : Vec F S8192x20 .f32) (y : S8192x20.Idx) :
    ∃ pc ∈ ([⟨rO, p0⟩] : List (View.Piece (Elt F) S8192x20 .f32)), y ∈ pc.1.set :=
  View.cover_of_tiled [⟨rO, p0⟩] S8192x20.size (by rfl) y

set_option maxHeartbeats 1000000 in
/-- The body on whole staging buffers, the inputs' at contents x0 and x1 and the result's at anything: it runs to
    the continuation with the inputs' buffers as they were and the result's holding the product block. -/
theorem sound_kernel (c : Dev nD) (E : Set ℕ) (i : grid0.Coords) (arg1 : Memref sig .tc .vmem S8192x256 .f32) (harg1 : arg1.IsWhole)
    (arg2 : Memref sig .tc .vmem S256x20 .f32) (harg2 : arg2.IsWhole) (arg3 : Memref sig .tc .vmem S8192x20 .f32) (harg3 : arg3.IsWhole)
    (x0 : Vec F S8192x256 .f32) (x1 : Vec F S256x20 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.Hand

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KiData.lean ====
/-
  The row-block product kernel at the extended reals: what each staging buffer holds after the body at each grid
  point, and the run of the whole program around it.

  The last of the thirteen row blocks overhangs the array: its fetch fills only the block's leading rows and leaves
  the other rows of the staging buffer at words nothing names. A row of the product depends on the same row of the
  left factor only, so the rows of the result block that are written back do not depend on those words.
-/
import proofs.«168765_j85907935854601_2_alg».proof.Proof.KiBody
import proofs.«168765_j85907935854601_2_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The product block at an index -/

/-- Entry (p, q) of the block the body stores is the sum over k of the left block's (p, k) times the right block's
    (k, q): a change of float format is the identity on the extended reals, and the product accumulates into zero. -/
theorem outBlk_apply (x0 : Vec Ideal S8192x256 .f32) (x1 : Vec Ideal S256x20 .f32) (p : Fin 8192) (q : Fin 20) :
    outBlk (F := Ideal) x0 x1 (ix2 p q) = ∑ k : Fin 256, x0 (ix2 p k) * x1 (ix2 k q) := by
  have hz : (![0, 0] : Fin 2 → Nat) = fun _ => 0 := funext fun a => by fin_cases a <;> rfl
  unfold outBlk
  rw [View.canon_unit_zero hz]
  simp only [View.ld_unit_zero (S := S8192x256) hz, View.ld_unit_zero (S := S256x20) hz]
  unfold k0_pay1
  rw [shapeCast_self]
  have e0 : (truncf .bf16 x0 bitsLt_bf16_f32 : FVec Ideal S8192x256 .bf16) = x0 := rfl
  have e1 : (truncf .bf16 x1 bitsLt_bf16_f32 : FVec Ideal S256x20 .bf16) = x1 := rfl
  rw [e0, e1]
  exact PlainDot.matmul_zero_apply 8192 256 20 none x0 x1 p q

/-! ## The schedule's facts, decided over the thirteen points -/

/-- The result window is never fetched. -/
theorem fetch_res : ∀ t : Fin cfg0.N, (cfg0.win 2).fetch t = false :=
  (by decide +kernel : ∀ t : Fin grid0.N, win0_2.fetch t = false)

/-- At every point the left factor's and the result's blocks keep the same rows, the left factor's block all its 256
    columns and the result's all its 20. -/
theorem sizes_at : ∀ t : Fin cfg0.N, win0_2.xsize (grid0.coords t) 0 = win0_0.xsize (grid0.coords t) 0
      ∧ win0_0.xsize (grid0.coords t) 1 = 256 ∧ win0_2.xsize (grid0.coords t) 1 = 20 :=
  (by decide +kernel : ∀ t : Fin grid0.N, win0_2.xsize (grid0.coords t) 0 = win0_0.xsize (grid0.coords t) 0
      ∧ win0_0.xsize (grid0.coords t) 1 = 256 ∧ win0_2.xsize (grid0.coords t) 1 = 20)

/-! ## Filling a block past the array's end -/

/-- On an entry the fetch moves, the filled block does not depend on what filled the rest. -/
theorem fill_indep (t : Fin cfg0.N) (d d' : S8192x256.Idx → Elt Ideal .f32) (g : (win0_0.xblock (grid0.coords t)).Idx → Elt Ideal .f32)
    (j : S8192x256.Idx) (h : win0_0.moved (grid0.coords t) j = true) :
    win0_0.fill (grid0.coords t) d g j = win0_0.fill (grid0.coords t) d' g j := by
  unfold Window.fill; rw [dif_pos h, dif_pos h]

/-- The rows of the product block that are written back do not depend on what fills the left block past the
    array's end: row p of the product reads row p of the left block only. -/
theorem outBlk_cut (t : Fin cfg0.N) (d d' : S8192x256.Idx → Elt Ideal .f32) (g : (win0_0.xblock (grid0.coords t)).Idx → Elt Ideal .f32)
    (wv : Vec Ideal S256x20 .f32) :
    win0_2.cut (grid0.coords t) (outBlk (F := Ideal) (win0_0.fill (grid0.coords t) d g) wv)
      = win0_2.cut (grid0.coords t) (outBlk (F := Ideal) (win0_0.fill (grid0.coords t) d' g) wv) := by
  funext j
  obtain ⟨h0, h1, h2⟩ := sizes_at t
  have hj0 : (j 0).val < win0_2.xsize (grid0.coords t) 0 := (j 0).isLt
  have hp : (j 0).val < 8192 := Nat.lt_of_lt_of_le hj0 (win0_2.xsize_le (grid0.coords t) 0)
  have hq : (j 1).val < 20 := Nat.lt_of_lt_of_le (j 1).isLt (win0_2.xsize_le (grid0.coords t) 1)
  have hx : win0_2.xinj (grid0.coords t) j = ix2 (⟨(j 0).val, hp⟩ : Fin 8192) (⟨(j 1).val, hq⟩ : Fin 20) := by
    funext a; refine Fin.ext ?_
    match a with
    | ⟨0, _⟩ => rfl
    | ⟨1, _⟩ => rfl
  show outBlk (F := Ideal) _ wv (win0_2.xinj (grid0.coords t) j) = outBlk (F := Ideal) _ wv (win0_2.xinj (grid0.coords t) j)
  rw [hx, outBlk_apply, outBlk_apply]
  refine Finset.sum_congr rfl fun k _ => ?_
  rw [fill_indep t d d' g (ix2 (⟨(j 0).val, hp⟩ : Fin 8192) k) ((win0_0.moved_iff (grid0.coords t) _).mpr fun a => by
    match a with
    | ⟨0, _⟩ => show (j 0).val < win0_0.xsize (grid0.coords t) 0; rw [← h0]; exact hj0
    | ⟨1, _⟩ => show k.val < win0_0.xsize (grid0.coords t) 1; rw [h1]; exact k.isLt)]

/-! ## The proof data -/

variable (m : (ℓ : Loc nD τ sig) → Buf (Elt Ideal) ℓ) (ρ : Dev nD → PrngReg)

/-- The left factor's block at point t as the body finds it, with zeros past the array's end. -/
def xfull (c : Dev nD) (t : Fin cfg0.N) : S8192x256.Idx → Elt Ideal .f32 :=
  win0_0.fill (grid0.coords t) (fun _ => ((0 : EReal) : Elt Ideal .f32)) (iblk m c 0 t)

/-- The proof data of the one pipeline on core c: the arrays as the region finds them; after the body at point t
    the left factor's buffer at its block (zeros past the array's end), the right factor's at its block, the
    result's at their product. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => outBlk (F := Ideal) (xfull m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfull m c t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = outBlk (F := Ideal) (xfull m c t) (iblk m c 1 t) := by dsimp only [dats]

/-- The left factor's buffer, fetched at every point: the block on the rows inside the array, anything past them. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]

/-- The right factor's buffer holds its block at every point, fetched there or not. -/
theorem before_1 (c : Dev nD) (t : Fin cfg0.N) (d) : (dats m 0 c).before 1 t d = iblk m c 1 t :=
  before0_1_of m (dats m 0 c) (A_eq m c 1) (after_1 m c) t d

/-- The result's buffer holds anything: it was written back at the point before. -/
theorem before_2 (c : Dev nD) (t : Fin cfg0.N) (d) : (dats m 0 c).before 2 t d = d := by
  refine (dats m 0 c).before_out_reset 2 rfl t ?_ d
  by_cases h : t.val = 0
  · exact .inl h
  · exact .inr ⟨h, flush0_2 _⟩

end Cert.KernelIdeal.Hand

end
-- ==== Proof.KiRun.lean ====
/-
  The row-block product kernel at the extended reals: the body's obligation at every grid point, the run of the whole
  program, and its frame.
-/
import proofs.«168765_j85907935854601_2_alg».proof.Proof.KiData

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body's obligation at every point: the left factor's buffer arrives holding its block on the rows inside
    the array and anything past them, the right factor's its block, the result's anything; the two inputs leave as
    they came and the result's buffer holds their product, whose written-back rows are those of the product of the
    blocks whatever lay past the array's end. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) (xfull m c t) = iblk m c 0 t := win0_0.cut_fill _ _ _
  have ho : win0_2.fill (grid0.coords t) (outBlk (F := Ideal) (win0_0.fill (grid0.coords t) d0 (iblk m c 0 t)) (iblk m c 1 t))
      (win0_2.cut (grid0.coords t) (outBlk (F := Ideal) (xfull m c t) (iblk m c 1 t)))
      = outBlk (F := Ideal) (win0_0.fill (grid0.coords t) d0 (iblk m c 0 t)) (iblk m c 1 t) :=
    win0_2.fill_congr_cut (grid0.coords t) (outBlk_cut t d0 _ (iblk m c 0 t) (iblk m c 1 t))
  isplitl [H0]
  · iexists d0
    rw [after_0]
    change _ ⊢ owns (c : Thread nD τ) (stage0_0 (cfg0.slots t 0)) fullShare (win0_0.fill (grid0.coords t) d0 (win0_0.cut (grid0.coords t) (xfull m c t)))
    rw [hx]; try iexact H0
  isplitl [H1]
  · rw [after_1]; try iexact H1
  · iexists outBlk (F := Ideal) (win0_0.fill (grid0.coords t) d0 (iblk m c 0 t)) (iblk m c 1 t)
    rw [after_2]
    change _ ⊢ owns (c : Thread nD τ) (stage0_2 (cfg0.slots t 2)) fullShare (win0_2.fill (grid0.coords t) _ (win0_2.cut (grid0.coords t) (outBlk (F := Ideal) (xfull m c t) (iblk m c 1 t))))
    rw [ho]; try iexact H2

/-! ## The run and the frame -/

set_option backward.isDefEq.respectTransparency.types false in
/-- Every weakly fair execution of the program terminates, nothing faulting; at the end every array of the pipeline
    holds what the write-backs make of the proof data, and every other buffer what the host lines after the region
    leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and leaves its six arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.Spec.lean ====
/-
  The two evaluations of a graph-convolution layer over an edge list, as functions of the arguments.

  Nodes are numbered 0 … 99999 and there are 3200000 edges; the edge list is a [2, 3200000] array of 32-bit
  words, row 0 the source words and row 1 the target words. A message along edge e is added at node i exactly
  when the target word of e, read as a signed integer, is i (a word outside 0 … 99999 lands nowhere). A source
  word is looked up as a row number: a negative word has 100000 added (in 32-bit arithmetic), then the word is
  read signed and clamped into 0 … 99999. The degree of node i counts the edges landing at i, plus one for the
  node's own loop; its inverse square root d i scales the messages.

  With h = x · W the layer's entry (i, j) is, evaluated with the scaling factored out of the sum,
      d i * ((0 + ∑ e landing at i, h (src e) j * d (src e)) + h i j * d i) + b j,
  and, evaluated with each message scaled by both ends' factors,
      (0 + ((∑ e landing at i, h (src e) j * (d (src e) * d (tgt e))) + h i j * (d i * d i))) + b j.
-/
import Idealize.ShloMosaic.Lib.ValueIdx
import Idealize.ShloMosaic.PureOps.Ideal
import proofs.«168765_j85907935854601_2_alg».proof.Proof.LibRowGather

noncomputable section

open scoped BigOperators

namespace Cert.Gcn

open Idealize.ShloMosaic Idealize.ShloMosaic.ValueIdx

abbrev SX : Shape := ⟨2, ![100000, 256]⟩
abbrev SEI : Shape := ⟨2, ![2, 3200000]⟩
abbrev SW : Shape := ⟨2, ![256, 10]⟩
abbrev SB : Shape := ⟨1, ![10]⟩
abbrev SO : Shape := ⟨2, ![100000, 10]⟩

/-- The source word of edge e. -/
def rowW (ei : SEI.Idx → BitVec 32) (e : Fin 3200000) : BitVec 32 := ei (ix2 (0 : Fin 2) e)
/-- The target word of edge e. -/
def colW (ei : SEI.Idx → BitVec 32) (e : Fin 3200000) : BitVec 32 := ei (ix2 (1 : Fin 2) e)

/-- A negative word has the node count added, in 32-bit arithmetic. -/
def wrap (b : BitVec 32) : BitVec 32 := Scalar.select (IntOp.cmpi .slt b 0#32) (IntOp.addi b 100000#32) b

/-- The node a word looks up: wrapped, read signed, clamped into 0 … 99999. -/
def node (b : BitVec 32) : Fin 100000 := RowGather.rowOf (N := 100000) (by decide) (wrap b)

/-- An update addressed by the word b lands at node i: the word read signed is i. -/
def lands (b : BitVec 32) (i : Fin 100000) : Prop := b.toInt = (i.val : Int)

instance (b : BitVec 32) (i : Fin 100000) : Decidable (lands b i) := by unfold lands; infer_instance

/-- The edges whose message lands at node i. -/
def into (ei : SEI.Idx → BitVec 32) (i : Fin 100000) : Finset (Fin 3200000) :=
  Finset.univ.filter fun e => lands (colW ei e) i

/-- The linear transform: entry (i, j) of x · W. -/
def lin (x : SX.Idx → EReal) (W : SW.Idx → EReal) (i : Fin 100000) (j : Fin 10) : EReal :=
  ∑ k : Fin 256, x (ix2 i k) * W (ix2 k j)

/-! ## Scaling factored out of the sum -/

def degK (ei : SEI.Idx → BitVec 32) (i : Fin 100000) : EReal := (0 + ∑ _e ∈ into ei i, (1 : EReal)) + 1
def dinvK (ei : SEI.Idx → BitVec 32) (i : Fin 100000) : EReal := Ideal.rsqrt (max (degK ei i) 1)
def scaledK (x : SX.Idx → EReal) (ei : SEI.Idx → BitVec 32) (W : SW.Idx → EReal) (i : Fin 100000) (j : Fin 10) : EReal :=
  lin x W i j * dinvK ei i
def layerK (x : SX.Idx → EReal) (ei : SEI.Idx → BitVec 32) (W : SW.Idx → EReal) (b : SB.Idx → EReal) : SO.Idx → EReal :=
  fun o => dinvK ei (o 0) * ((0 + ∑ e ∈ into ei (o 0), scaledK x ei W (node (rowW ei e)) (o 1)) + scaledK x ei W (o 0) (o 1))
    + b (ix1 (o 1))

/-! ## Each message scaled by both ends' factors -/

def degR (ei : SEI.Idx → BitVec 32) (i : Fin 100000) : EReal := 0 + ((∑ _e ∈ into ei i, (1 : EReal)) + 1)
def dinvR (ei : SEI.Idx → BitVec 32) (i : Fin 100000) : EReal := Ideal.rsqrt (max (degR ei i) 1)
def layerR (x : SX.Idx → EReal) (ei : SEI.Idx → BitVec 32) (W : SW.Idx → EReal) (b : SB.Idx → EReal) : SO.Idx → EReal :=
  fun o => (0 + ((∑ e ∈ into ei (o 0), lin x W (node (rowW ei e)) (o 1) * (dinvR ei (node (rowW ei e)) * dinvR ei (node (colW ei e))))
      + lin x W (o 0) (o 1) * (dinvR ei (o 0) * dinvR ei (o 0))))
    + b (ix1 (o 1))

end Cert.Gcn

end
-- ==== Proof.KiValue.lean ====
/-
  The idealized kernel program's two results as functions of its arguments: the product array the region leaves,
  read through the host lines after it.
-/
import proofs.«168765_j85907935854601_2_alg».proof.Proof.KiRun
import proofs.«168765_j85907935854601_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Core c's buffer contents when the region is left: the pipeline's arrays as the write-backs leave them, every
    other buffer as the region found it. -/
def Wt (c : Dev nD) : Valuation τ sig (Elt Ideal) :=
  Pipeline.withArrays spec0 c (V0 m c) fun w => (dats m 0 c).arrAt w cfg0.N

theorem tail_eq (c : Dev nD) (b : Ref sig .tc) :
    Pipeline.afterTail₀ cfgs (dats m) 0 (V0 m) [hostOps1] c b = StableHlo.after hostOps1 (Wt m c) (Proc.devRef .tc b) := by
  unfold Pipeline.afterTail₀ Wt
  simp only [List.flatten_cons, List.flatten_nil, List.append_nil]

theorem Wt_v12 (c : Dev nD) : Wt m c (Proc.devRef .tc main_v12) = V m c main_v12 :=
  Pipeline.withArrays_of_ne _ c (V0 m c) _ main_v12 (by decide)
theorem Wt_v1 (c : Dev nD) : Wt m c (Proc.devRef .tc main_v1) = V m c main_v1 :=
  Pipeline.withArrays_of_ne _ c (V0 m c) _ main_v1 (by decide)
theorem Wt_v3 (c : Dev nD) : Wt m c (Proc.devRef .tc main_v3) = V m c main_v3 :=
  Pipeline.withArrays_of_ne _ c (V0 m c) _ main_v3 (by decide)
theorem Wt_arg3 (c : Dev nD) : Wt m c (Proc.devRef .tc main_arg3) = m ((c : Thread nD τ).loc main_arg3) :=
  (Pipeline.withArrays_of_ne _ c (V0 m c) _ main_arg3 (by decide)).trans (V_main_arg3 m c)
theorem Wt_arg5 (c : Dev nD) : Wt m c (Proc.devRef .tc main_arg5) = m ((c : Thread nD τ).loc main_arg5) :=
  (Pipeline.withArrays_of_ne _ c (V0 m c) _ main_arg5 (by decide)).trans (V_main_arg5 m c)
theorem Wt_v14 (c : Dev nD) : Wt m c (Proc.devRef .tc main_v14) = (dats m 0 c).arrAt 2 cfg0.N :=
  Pipeline.withArrays_arr spec0 launch0.win.arr_inj c _ _ 2

/-- The run with its two results named: what the host lines after the region compute from the contents the region
    leaves. -/
theorem run_named : θ_run defs (onTc (τ := τ) (main (F := Ideal))) ⟨m, fun _ => 0, ρ⟩ (fun r => ∀ c : Dev nD,
      r.2.mem ((c.tc : Thread nD τ).loc main_v35) = StableHlo.after hostOps1 (Wt m c) (Proc.devRef .tc main_v35)
      ∧ r.2.mem ((c.tc : Thread nD τ).loc main_v39) = StableHlo.after hostOps1 (Wt m c) (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v35 (Pipeline.mem_restRefs_of main_v35 (by decide) (by decide))).trans (tail_eq m c main_v35),
     ((h c).2 main_v39 (Pipeline.mem_restRefs_of main_v39 (by decide) (by decide))).trans (tail_eq m c main_v39),
     ((h c).1 0).trans (((dats m 0 c).arrAt_in 0 rfl _).trans ((A_eq m c 0).trans (V_main_arg0 m c))),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c)),
     (((h c).2 main_arg3 (Pipeline.mem_restRefs_of main_arg3 (by decide) (by decide))).trans (W_main_arg3 m (dats m) c)),
     (((h c).2 main_arg4 (Pipeline.mem_restRefs_of main_arg4 (by decide) (by decide))).trans (W_main_arg4 m (dats m) c)),
     (((h c).2 main_arg5 (Pipeline.mem_restRefs_of main_arg5 (by decide) (by decide))).trans (W_main_arg5 m (dats m) c))⟩)
    (run_main m ρ)

end Cert.KernelIdeal.Hand

end
-- ==== Proof.KiFinal.lean ====
/-
  The result array of the row-block product kernel after the run: the product of the left factor's array and the
  weights' array, entry by entry.

  Point t writes back the leading rows of its product block onto rows 8192 t … of the result array: all 8192 at the
  first twelve points, the 1696 rows inside the array at the last. Entry (p, q) of that block is the sum over k of
  the left block's (p, k), which is the left array's (8192 t + p, k), times the weights' (k, q). The thirteen row
  ranges cover the 100000 rows, so the array ends holding the product.
-/
import proofs.«168765_j85907935854601_2_alg».proof.Proof.KiData

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The product of a [100000, 256] array and a [256, 20] array, entry by entry. -/
def hArr (x : S100000x256.Idx → EReal) (w : S256x20.Idx → EReal) : S100000x20.Idx → EReal :=
  fun o => ∑ k : Fin 256, x (ix2 (o 0) k) * w (ix2 k (o 1))

/-! ## The block indices and cut sizes, decided over the thirteen points -/

/-- At point t the left factor's and the result's blocks are block row t, column block 0; the weights' block is
    the whole array; the row blocks keep 8192 rows but for the last, which keeps 1696. -/
theorem idx_facts : ∀ t : Fin cfg0.N,
      win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.xsize (grid0.coords t) 0 = (if t.val = 12 then 1696 else 8192)
    ∧ win0_2.xsize (grid0.coords t) 1 = 20 :=
  (by decide +kernel : ∀ t : Fin grid0.N,
      win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.xsize (grid0.coords t) 0 = (if t.val = 12 then 1696 else 8192)
    ∧ win0_2.xsize (grid0.coords t) 1 = 20)

variable (m : (ℓ : Loc nD τ sig) → Buf (Elt Ideal) ℓ) (ρ : Dev nD → PrngReg)

/-! ## The blocks read at an index -/

/-- The left factor's block at point t, at a row p the fetch moves and a column k, is the left array's entry
    (8192 t + p, k). -/
theorem xfull_at (c : Dev nD) (t : Fin cfg0.N) (p : Fin 8192) (k : Fin 256)
    (hp : p.val < win0_0.xsize (grid0.coords t) 0) (i : S100000x256.Idx)
    (hi0 : (i 0).val = t.val * 8192 + p.val) (hi1 : (i 1).val = k.val) :
    xfull m c t (ix2 p k) = V m c main_arg0 i := by
  obtain ⟨-, h1, -⟩ := sizes_at t
  obtain ⟨-, -, e0, e1, -⟩ := idx_facts t
  have hmv : win0_0.moved (grid0.coords t) (ix2 p k) = true := (win0_0.moved_iff (grid0.coords t) _).mpr fun a => by
    match a with
    | ⟨0, _⟩ => exact hp
    | ⟨1, _⟩ => show k.val < win0_0.xsize (grid0.coords t) 1; rw [h1]; exact k.isLt
  unfold xfull Window.fill
  rw [dif_pos hmv]
  unfold iblk
  show V m c main_arg0 (((cfg0.win 0).blk t).view.emb _) = V m c main_arg0 i
  refine congrArg _ ?_
  funext a; refine Fin.ext ?_
  match a with
  | ⟨0, _⟩ =>
    show win0_0.index t (0 : Fin 2) * 8192 + 1 * p.val = (i 0).val
    rw [e0, hi0]; omega
  | ⟨1, _⟩ =>
    show win0_0.index t (1 : Fin 2) * 256 + 1 * k.val = (i 1).val
    rw [e1, hi1]; omega

/-- The weights' block at every point is the weights' array. -/
theorem wblk_at (c : Dev nD) (t : Fin cfg0.N) (k : Fin 256) (q : Fin 20) (i : S256x20.Idx)
    (hi0 : (i 0).val = k.val) (hi1 : (i 1).val = q.val) :
    iblk m c 1 t (ix2 k q) = V m c main_v13 i := by
  obtain ⟨-, -, -, -, e0, e1, -⟩ := idx_facts t
  unfold iblk
  show V m c main_v13 (((cfg0.win 1).blk t).view.emb _) = V m c main_v13 i
  refine congrArg _ ?_
  funext a; refine Fin.ext ?_
  match a with
  | ⟨0, _⟩ =>
    show win0_1.index t (0 : Fin 2) * 256 + 1 * k.val = (i 0).val
    rw [e0, hi0]; omega
  | ⟨1, _⟩ =>
    show win0_1.index t (1 : Fin 2) * 20 + 1 * q.val = (i 1).val
    rw [e1, hi1]; omega

/-! ## What each point writes back -/

/-- WHAT POINT t WRITES BACK is block t of the product of the two arrays as the region finds them. -/
theorem flushed_eq (c : Dev nD) (t : Fin cfg0.N) :
    (dats m 0 c).flushed 2 t
      = ((cfg0.win 2).blk t).view.read (Elt Ideal) (hArr (V m c main_arg0) (V m c main_v13)) := by
  show (cfg0.win 2).cut (grid0.coords t) ((dats m 0 c).after 2 t) = _
  rw [after_2]
  funext y
  obtain ⟨h0, h1, h2⟩ := sizes_at t
  obtain ⟨f0, f1, -⟩ := idx_facts t
  have hy0 : (y 0).val < win0_2.xsize (grid0.coords t) 0 := (y 0).isLt
  have hp : (y 0).val < 8192 := Nat.lt_of_lt_of_le hy0 (win0_2.xsize_le (grid0.coords t) 0)
  have hq : (y 1).val < 20 := Nat.lt_of_lt_of_le (y 1).isLt (win0_2.xsize_le (grid0.coords t) 1)
  have hx : win0_2.xinj (grid0.coords t) y = ix2 (⟨(y 0).val, hp⟩ : Fin 8192) (⟨(y 1).val, hq⟩ : Fin 20) := by
    funext a; refine Fin.ext ?_
    match a with
    | ⟨0, _⟩ => rfl
    | ⟨1, _⟩ => rfl
  show outBlk (F := Ideal) _ _ (win0_2.xinj (grid0.coords t) y)
    = hArr (V m c main_arg0) (V m c main_v13) (((cfg0.win 2).blk t).view.emb y)
  rw [hx, outBlk_apply]
  unfold hArr
  refine Finset.sum_congr rfl fun k _ => ?_
  have r0 : ((((cfg0.win 2).blk t).view.emb y) 0).val = t.val * 8192 + (y 0).val := by
    show win0_2.index t (0 : Fin 2) * 8192 + 1 * (y 0).val = _
    rw [f0]; omega
  have r1 : ((((cfg0.win 2).blk t).view.emb y) 1).val = (y 1).val := by
    show win0_2.index t (1 : Fin 2) * 20 + 1 * (y 1).val = _
    rw [f1]; omega
  rw [xfull_at m c t ⟨(y 0).val, hp⟩ k (by rw [← h0]; exact hy0) (ix2 ((((cfg0.win 2).blk t).view.emb y) 0) k) r0 rfl,
    wblk_at m c t k ⟨(y 1).val, hq⟩ (ix2 k ((((cfg0.win 2).blk t).view.emb y) 1)) rfl r1]

/-! ## The blocks cover the array -/

/-- An index of the result array is in point t's block iff each coordinate is in the block's range on its axis. -/
theorem mem_blk (t : Fin cfg0.N) (i : S100000x20.Idx) :
    i ∈ ((cfg0.win 2).blk t).view.set
      ↔ ∀ a : Fin 2, win0_2.index t a * S8192x20.size a ≤ (i a).val
          ∧ (i a).val < win0_2.index t a * S8192x20.size a + win0_2.xsize (grid0.coords t) a := by
  show i ∈ ((View.whole main_v14).slice (win0_2.rect t)).set ↔ _
  rw [View.set_slice_whole, Rect.mem_set_unit]
  exact Iff.rfl

/-- Every index of the result array is in some point's block: row r is in block row r / 8192. -/
theorem covered (i : S100000x20.Idx) :
    ∃ t : Fin cfg0.N, (cfg0.win 2).flush t = true ∧ i ∈ ((cfg0.win 2).blk t).view.set := by
  have hi0 : (i 0).val < 100000 := (i 0).isLt
  have hi1 : (i 1).val < 20 := (i 1).isLt
  have ht : (i 0).val / 8192 < 13 := by omega
  refine ⟨⟨(i 0).val / 8192, ht⟩, flush0_2 _, ?_⟩
  rw [mem_blk]
  obtain ⟨f0, f1, -, -, -, -, s0, s1⟩ := idx_facts ⟨(i 0).val / 8192, ht⟩
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + win0_2.xsize (grid0.coords ⟨(i 0).val / 8192, ht⟩) 0
    rw [f0, s0]
    show (i 0).val / 8192 * 8192 ≤ (i 0).val
      ∧ (i 0).val < (i 0).val / 8192 * 8192 + (if (i 0).val / 8192 = 12 then 1696 else 8192)
    split <;> omega
  | ⟨1, _⟩ =>
    show win0_2.index ⟨(i 0).val / 8192, ht⟩ (1 : Fin 2) * 20 ≤ (i 1).val
      ∧ (i 1).val < win0_2.index ⟨(i 0).val / 8192, ht⟩ (1 : Fin 2) * 20 + win0_2.xsize (grid0.coords ⟨(i 0).val / 8192, ht⟩) 1
    rw [f1, s1]; omega

/-! ## The array after the run -/

/-- THE RESULT ARRAY after the run is the product of the left factor's array and the weights' array. -/
theorem final_h (c : Dev nD) :
    (dats m 0 c).arrAt 2 cfg0.N = hArr (V m c main_arg0) (V m c main_v13) :=
  (dats m 0 c).arrAt_eq_of_cover 2 (hArr (V m c main_arg0) (V m c main_v13)) (fun t _ => flushed_eq m c t) covered

end Cert.KernelIdeal.Hand

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.KiHostScatter.lean ====
/-
  A float scatter-add of rows, at the exact instance, read at one entry of its result: the operand's entry plus the
  sum, over the updates whose row number read signed is the entry's row, of the update in the entry's column.
-/
import Idealize.ShloMosaic.Lib.ValueIdx
import Idealize.ShloMosaic.PureOps.Ideal
import proofs.«168765_j85907935854601_2_alg».proof.Proof.LibRowScatter

noncomputable section

open scoped BigOperators

namespace Cert.KernelIdeal.Hand

open Idealize.ShloMosaic Idealize.ShloMosaic.ValueIdx

/-- A rank-1 index and its one coordinate. -/
def idx1Equiv (n : Nat) : Fin n ≃ (⟨1, ![n]⟩ : Shape).Idx where
  toFun := ix1
  invFun j := j 0
  left_inv _ := rfl
  right_inv j := (eq_ix1 j).symm

/-- A scatter-add into a vector, at entry `i`: the operand's entry plus the sum of the updates `e` whose row number,
    read signed, is `i`. -/
theorem vec_scatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (RowScatter.vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_equiv (idx1Equiv E) (fun e => ?_) (fun _ _ => rfl)
  rw [Finset.mem_filter, Finset.mem_filter]
  exact and_congr (by simp) (RowScatter.vec_resultIdx_iff wf idx e i).symm

/-- A scatter-add of rows into a table, at entry `(i, j)`: the operand's entry plus the sum over the updates `e` whose
    row number, read signed, is `i`, of the update's entry in column `j`. -/
theorem row_scatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (RowScatter.rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) (fun e he => ?_) (fun e₁ _ e₂ _ h => ?_) (fun p hp => ?_) (fun _ _ => rfl)
  · rw [Finset.mem_filter] at he ⊢
    exact ⟨Finset.mem_univ _, (RowScatter.row_resultIdx_iff wf idx e j i j).mpr ⟨he.2, rfl⟩⟩
  · exact congrFun h 0
  · rw [Finset.mem_filter] at hp
    have hp2 := hp.2
    rw [eq_ix2 p] at hp2
    obtain ⟨hr, hj⟩ := (RowScatter.row_resultIdx_iff wf idx (p 0) (p 1) i j).mp hp2
    refine ⟨p 0, Finset.mem_filter.mpr ⟨Finset.mem_univ _, hr⟩, ?_⟩
    rw [← hj]; exact (eq_ix2 p).symm

end Cert.KernelIdeal.Hand

end
-- ==== Proof.KiHostPre.lean ====
/-
  The operations before the region, read at an index: the two rows of the edge list, the inverse square roots of
  the degrees, and the two weight matrices side by side.
-/
import proofs.«168765_j85907935854601_2_alg».proof.Proof.Gen.KernelIdeal.Frame
import proofs.«168765_j85907935854601_2_alg».proof.Proof.Spec
import proofs.«168765_j85907935854601_2_alg».proof.Proof.LibRowGather
import proofs.«168765_j85907935854601_2_alg».proof.Proof.LibRowScatter
import proofs.«168765_j85907935854601_2_alg».proof.Proof.LibGcnLaws
import Idealize.ShloMosaic.Lib.StableHlo.Run
import Idealize.ShloMosaic.Lib.Pipeline.Value
import Idealize.ShloMosaic.Lib.ValueIdx
import Idealize.ShloMosaic.Lib.ValueLayout
import proofs.«168765_j85907935854601_2_alg».proof.Proof.KiHostScatter

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! ## The pieces, over any edge list -/

/-- Row 0 of the edge list as a vector. -/
def rowV (ei : S2x3200000.Idx → BitVec 32) : S3200000.Idx → BitVec 32 :=
  shapeCast S3200000 (extractStridedSlice S1x3200000 ![0, 0] ei slices_S2x3200000_S1x3200000_0_0) shapeCasts_S1x3200000_S3200000
/-- Row 1 of the edge list as a vector. -/
def colV (ei : S2x3200000.Idx → BitVec 32) : S3200000.Idx → BitVec 32 :=
  shapeCast S3200000 (extractStridedSlice S1x3200000 ![1, 0] ei slices_S2x3200000_S1x3200000_1_0) shapeCasts_S1x3200000_S3200000

theorem rowV_apply (ei : S2x3200000.Idx → BitVec 32) (e : Fin 3200000) : rowV ei (ix1 e) = Cert.Gcn.rowW ei e := by
  unfold rowV Cert.Gcn.rowW
  rw [shapeCast_1a_a_apply]
  exact slice2_axis0_apply 0 ei _ (0 : Fin 1) e (0 : Fin 2) rfl

theorem colV_apply (ei : S2x3200000.Idx → BitVec 32) (e : Fin 3200000) : colV ei (ix1 e) = Cert.Gcn.colW ei e := by
  unfold colV Cert.Gcn.colW
  rw [shapeCast_1a_a_apply]
  exact slice2_axis0_apply 1 ei _ (0 : Fin 1) e (1 : Fin 2) rfl

/-- The f32 pattern of zero is zero. -/
theorem ofBits_zero_f32 : Ideal.ofBits .f32 0x00000000#32 = 0 := by simp [Ideal.ofBits, Ideal.ieee]

/-- A scalar constant broadcast to a vector reads the constant's value everywhere. -/
theorem splat1_apply {n : Nat} (h : S_.BroadcastsInDim (⟨1, ![n]⟩ : Shape) (![] : Fin 0 → Fin 1)) (b : BitVec 32) (i : (⟨1, ![n]⟩ : Shape).Idx) :
    broadcastInDim (⟨1, ![n]⟩ : Shape) ![] h (constant (F := Ideal) S_ .f32 b) i = Ideal.ofBits .f32 b :=
  broadcastInDim_apply _ h _ i ix0 (fun a => a.elim0)

/-- The degree vector's inverse square roots as the operations spell them: ones scattered by the target words into
    zeros, plus one, the larger of that and one, the inverse square root. -/
def dinvV (ei : S2x3200000.Idx → BitVec 32) : S100000.Idx → EReal :=
  Host.rsqrt (F := Ideal)
    (maximumf
      (addf
        (Host.scatterAdd scatter_S100000_S3200000x1_S3200000_n_0_0_1
          (broadcastInDim S100000 ![] bcast_S_S100000 (constant (F := Ideal) S_ .f32 0x00000000#32))
          (broadcastInDim S3200000x1 ![0] bcast_S3200000_S3200000x1_0 (colV ei))
          (broadcastInDim S3200000 ![] bcast_S_S3200000 (constant (F := Ideal) S_ .f32 0x3F800000#32)))
        (broadcastInDim S100000 ![] bcast_S_S100000 (constant (F := Ideal) S_ .f32 0x3F800000#32)))
      (broadcastInDim S100000 ![] bcast_S_S100000 (constant (F := Ideal) S_ .f32 0x3F800000#32)))

/-- The target words as an [E, 1] array read the target word. -/
theorem col1_apply (v : S3200000.Idx → BitVec 32) (e : Fin 3200000) :
    broadcastInDim S3200000x1 ![0] bcast_S3200000_S3200000x1_0 v (ix2 e (0 : Fin 1)) = v (ix1 e) :=
  broadcastInDim_apply _ _ _ _ (ix1 e) (fun a => by match a with | ⟨0, _⟩ => rfl)

theorem dinvV_apply (ei : S2x3200000.Idx → BitVec 32) (i : Fin 100000) : dinvV ei (ix1 i) = Cert.Gcn.dinvK ei i := by
  unfold dinvV
  have h1 : ∀ (x : FVec Ideal S100000 .f32), Host.rsqrt x (ix1 i) = Ideal.rsqrt (x (ix1 i)) := fun _ => rfl
  rw [h1, maximumf_apply, addf_apply]
  have h2 : ∀ x idx upd, Host.scatterAdd (F := Ideal) (φ := .f32) (w := 32) scatter_S100000_S3200000x1_S3200000_n_0_0_1 x idx upd
      = Ideal.hostScatterAdd (RowScatter.vecDims 100000 3200000 scatter_S100000_S3200000x1_S3200000_n_0_0_1_wf) x idx upd :=
    fun _ _ _ => rfl
  rw [h2, vec_scatterAdd_apply]
  have hz : broadcastInDim S100000 ![] bcast_S_S100000 (constant (F := Ideal) S_ .f32 0x00000000#32) (ix1 i) = 0 :=
    (splat1_apply _ _ _).trans ofBits_zero_f32
  have ho : broadcastInDim S100000 ![] bcast_S_S100000 (constant (F := Ideal) S_ .f32 0x3F800000#32) (ix1 i) = 1 :=
    (splat1_apply _ _ _).trans GcnLaws.ofBits_one_f32
  have hoe : ∀ e : Fin 3200000,
      broadcastInDim S3200000 ![] bcast_S_S3200000 (constant (F := Ideal) S_ .f32 0x3F800000#32) (ix1 e) = 1 :=
    fun e => (splat1_apply _ _ _).trans GcnLaws.ofBits_one_f32
  have hc : ∀ e : Fin 3200000,
      broadcastInDim S3200000x1 ![0] bcast_S3200000_S3200000x1_0 (colV ei) (ix2 e (0 : Fin 1)) = Cert.Gcn.colW ei e :=
    fun e => (col1_apply _ e).trans (colV_apply ei e)
  rw [hz, ho]
  simp only [hoe, hc]
  unfold Cert.Gcn.dinvK Cert.Gcn.degK Cert.Gcn.into Cert.Gcn.lands
  congr

/-! ## The region-entry contents -/

variable (m : (ℓ : Loc nD τ sig) → Buf (Elt Ideal) ℓ)

theorem V_v1 (c : Dev nD) : (V m c main_v1 : S3200000.Idx → BitVec 32) = rowV (m ((c : Thread nD τ).loc main_arg1)) := by
  show StableHlo.after hostOps0 (fun b => m (c, b)) (Proc.devRef .tc main_v1) = _
  after_results
  rfl

theorem V_v3 (c : Dev nD) : (V m c main_v3 : S3200000.Idx → BitVec 32) = colV (m ((c : Thread nD τ).loc main_arg1)) := by
  show StableHlo.after hostOps0 (fun b => m (c, b)) (Proc.devRef .tc main_v3) = _
  after_results
  rfl

set_option maxHeartbeats 1000000 in
theorem V_v12 (c : Dev nD) : (V m c main_v12 : S100000.Idx → EReal) = dinvV (m ((c : Thread nD τ).loc main_arg1)) := by
  show StableHlo.after hostOps0 (fun b => m (c, b)) (Proc.devRef .tc main_v12) = _
  after_results_simp
  rfl

theorem V_v13 (c : Dev nD) : (V m c main_v13 : S256x20.Idx → EReal)
    = concatenate S256x20 1 [⟨S256x10, m ((c : Thread nD τ).loc main_arg2)⟩, ⟨S256x10, m ((c : Thread nD τ).loc main_arg4)⟩]
        concatenates_S256x10_S256x10_S256x20_d1 := by
  show StableHlo.after hostOps0 (fun b => m (c, b)) (Proc.devRef .tc main_v13) = _
  after_results

/-- The source word of edge `e`. -/
theorem pre_row (c : Dev nD) (e : Fin 3200000) :
    (V m c main_v1 : S3200000.Idx → BitVec 32) (ix1 e) = Cert.Gcn.rowW (m ((c : Thread nD τ).loc main_arg1)) e := by
  rw [V_v1, rowV_apply]

/-- The target word of edge `e`. -/
theorem pre_col (c : Dev nD) (e : Fin 3200000) :
    (V m c main_v3 : S3200000.Idx → BitVec 32) (ix1 e) = Cert.Gcn.colW (m ((c : Thread nD τ).loc main_arg1)) e := by
  rw [V_v3, colV_apply]

/-- The inverse square root of node `i`'s degree. -/
theorem pre_dinv (c : Dev nD) (i : Fin 100000) :
    (V m c main_v12 : S100000.Idx → EReal) (ix1 i) = Cert.Gcn.dinvK (m ((c : Thread nD τ).loc main_arg1)) i := by
  rw [V_v12, dinvV_apply]

/-- The weights: the first matrix in columns 0 … 9, -/
theorem pre_w_left (c : Dev nD) (k : Fin 256) (q : Fin 10) :
    (V m c main_v13 : S256x20.Idx → EReal) (ix2 k (⟨q.val, by omega⟩ : Fin 20))
      = (m ((c : Thread nD τ).loc main_arg2) : S256x10.Idx → EReal) (ix2 k q) := by
  rw [V_v13]
  exact concatenate_pair_apply_left (t := S256x20) (s₁ := S256x10) (s₂ := S256x10) (1 : Fin 2) _ _ _ (ix2 k (⟨q.val, by omega⟩ : Fin 20)) rfl (ix2 k q)
    (fun b => by match b with | ⟨0, _⟩ => rfl | ⟨1, _⟩ => rfl)

/-- the second in columns 10 … 19. -/
theorem pre_w_right (c : Dev nD) (k : Fin 256) (q : Fin 10) :
    (V m c main_v13 : S256x20.Idx → EReal) (ix2 k (⟨q.val + 10, by omega⟩ : Fin 20))
      = (m ((c : Thread nD τ).loc main_arg4) : S256x10.Idx → EReal) (ix2 k q) := by
  rw [V_v13]
  exact concatenate_pair_apply_right (t := S256x20) (s₁ := S256x10) (s₂ := S256x10) (1 : Fin 2) _ _ _ (ix2 k (⟨q.val + 10, by omega⟩ : Fin 20)) rfl rfl (ix2 k q)
    (fun b hb => by
      match b with
      | ⟨0, _⟩ => rfl
      | ⟨1, _⟩ => exact absurd rfl hb)
    rfl

end Cert.KernelIdeal.Hand

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«168765_j85907935854601_2_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.KiHostTailTerm.lean ====
/-
  The operations after the region, composed: the two outputs of the layer as terms over the buffers the region leaves.
-/
import proofs.«168765_j85907935854601_2_alg».proof.Proof.Gen.KernelIdeal.Launch
import proofs.«168765_j85907935854601_2_alg».proof.Proof.Spec
import proofs.«168765_j85907935854601_2_alg».proof.Proof.LibRowGather
import proofs.«168765_j85907935854601_2_alg».proof.Proof.LibScatterSum
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! ## The pieces, over any contents -/

/-- A vector over the nodes repeated along 20 columns. -/
def tailCols (dv : S100000.Idx → EReal) : S100000x20.Idx → EReal :=
  broadcastInDim S100000x20 ![0, 1] bcast_S100000x1_S100000x20_0_1
    (broadcastInDim S100000x1 ![0] bcast_S100000_S100000x1_0 dv)

/-- The transformed features, each row scaled by its node's factor. -/
def tailScaled (hh : S100000x20.Idx → EReal) (dv : S100000.Idx → EReal) : S100000x20.Idx → EReal :=
  mulf (F := Ideal) (φ := .f32) hh (tailCols dv)

/-- The source words with the node count added to the negative ones. -/
def tailWrap (row : S3200000.Idx → BitVec 32) : S3200000.Idx → BitVec 32 :=
  select (cmpi .slt row (broadcastInDim S3200000 ![] bcast_S_S3200000 (constantI S_ 32 0#32)))
    (addi row (broadcastInDim S3200000 ![] bcast_S_S3200000 (constantI S_ 32 100000#32))) row

/-- The scaled rows looked up at the source words. -/
def tailGathered (hh : S100000x20.Idx → EReal) (dv : S100000.Idx → EReal) (row : S3200000.Idx → BitVec 32) :
    S3200000x20.Idx → EReal :=
  Host.gather gather_S100000x20_S3200000x1_S3200000x20_1_0_n_n_0_1_120 (tailScaled hh dv)
    (broadcastInDim S3200000x1 ![0] bcast_S3200000_S3200000x1_0 (tailWrap row))

/-- The looked-up rows added up at the target words, from zero. -/
def tailSummed (hh : S100000x20.Idx → EReal) (dv : S100000.Idx → EReal) (row col : S3200000.Idx → BitVec 32) :
    S100000x20.Idx → EReal :=
  Host.scatterAdd (F := Ideal) scatter_S100000x20_S3200000x1_S3200000x20_1_0_0_1
    (broadcastInDim S100000x20 ![] bcast_S_S100000x20 (constant (F := Ideal) S_ .f32 0x00000000#32))
    (broadcastInDim S3200000x1 ![0] bcast_S3200000_S3200000x1_0 col)
    (tailGathered hh dv row)

/-- Both heads of the layer before the biases: the sums plus the node's own scaled row, scaled by the node's factor. -/
def tailBoth (hh : S100000x20.Idx → EReal) (dv : S100000.Idx → EReal) (row col : S3200000.Idx → BitVec 32) :
    S100000x20.Idx → EReal :=
  mulf (F := Ideal) (φ := .f32) (tailCols dv) (addf (F := Ideal) (φ := .f32) (tailSummed hh dv row col) (tailScaled hh dv))

/-- A bias vector repeated along the nodes. -/
def tailBias (b : S10.Idx → EReal) : S100000x10.Idx → EReal :=
  broadcastInDim S100000x10 ![0, 1] bcast_S1x10_S100000x10_0_1 (broadcastInDim S1x10 ![1] bcast_S10_S1x10_1 b)

/-- The first head: columns 0 … 9 plus the first bias. -/
def tailMu (hh : S100000x20.Idx → EReal) (dv : S100000.Idx → EReal) (row col : S3200000.Idx → BitVec 32)
    (b : S10.Idx → EReal) : S100000x10.Idx → EReal :=
  addf (F := Ideal) (φ := .f32)
    (extractStridedSlice S100000x10 ![0, 0] (tailBoth hh dv row col) slices_S100000x20_S100000x10_0_0) (tailBias b)

/-- The second head: columns 10 … 19 plus the second bias. -/
def tailLogstd (hh : S100000x20.Idx → EReal) (dv : S100000.Idx → EReal) (row col : S3200000.Idx → BitVec 32)
    (b : S10.Idx → EReal) : S100000x10.Idx → EReal :=
  addf (F := Ideal) (φ := .f32)
    (extractStridedSlice S100000x10 ![0, 10] (tailBoth hh dv row col) slices_S100000x20_S100000x10_0_10) (tailBias b)

/-! ## The buffers after the line -/

variable (W : Valuation τ sig (Elt Ideal))

set_option maxHeartbeats 1000000 in
/-- The first output after the line is the first head of the buffers the line starts from. -/
theorem tail_v35 : (StableHlo.after hostOps1 W (Proc.devRef .tc main_v35) : S100000x10.Idx → EReal)
    = tailMu (W (Proc.devRef .tc main_v14)) (W (Proc.devRef .tc main_v12)) (W (Proc.devRef .tc main_v1))
        (W (Proc.devRef .tc main_v3)) (W (Proc.devRef .tc main_arg3)) := by
  show StableHlo.after hostOps1 W (Proc.devRef .tc main_v35) = _
  after_results_simp
  rfl

set_option maxHeartbeats 1000000 in
/-- The second output after the line is the second head of the buffers the line starts from. -/
theorem tail_v39 : (StableHlo.after hostOps1 W (Proc.devRef .tc main_v39) : S100000x10.Idx → EReal)
    = tailLogstd (W (Proc.devRef .tc main_v14)) (W (Proc.devRef .tc main_v12)) (W (Proc.devRef .tc main_v1))
        (W (Proc.devRef .tc main_v3)) (W (Proc.devRef .tc main_arg5)) := by
  show StableHlo.after hostOps1 W (Proc.devRef .tc main_v39) = _
  after_results_simp
  rfl

end Cert.KernelIdeal.Hand

end
-- ==== Proof.KiHostTail.lean ====
/-
  The operations after the region, read at an index: each output entry of the layer as the node's factor times
  (the sum of the scaled features of the edges landing at the node, plus the node's own scaled feature), plus the
  bias — over any contents the line starts from.
-/
import proofs.«168765_j85907935854601_2_alg».proof.Proof.KiHostTailTerm

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! ## The pieces read at an index -/

/-- The repeated vector reads the node's entry in every column. -/
theorem tailCols_apply (dv : S100000.Idx → EReal) (i : Fin 100000) (q : Fin 20) : tailCols dv (ix2 i q) = dv (ix1 i) := by
  unfold tailCols
  rw [broadcastInDim_apply _ _ _ (ix2 i q) (ix2 i (0 : Fin 1)) (fun a => by match a with | ⟨0, _⟩ => rfl | ⟨1, _⟩ => rfl)]
  exact broadcastInDim_apply _ _ _ _ (ix1 i) (fun a => by match a with | ⟨0, _⟩ => rfl)

/-- The scaled features at (i, q): the feature times node i's factor. -/
theorem tailScaled_apply (hh : S100000x20.Idx → EReal) (dv : S100000.Idx → EReal) (i : Fin 100000) (q : Fin 20) :
    tailScaled hh dv (ix2 i q) = hh (ix2 i q) * dv (ix1 i) := by
  unfold tailScaled
  rw [mulf_apply, tailCols_apply]

/-- A vector of words as an [E, 1] array reads the word. -/
theorem tailIdx_apply (v : S3200000.Idx → BitVec 32) (e : Fin 3200000) :
    broadcastInDim S3200000x1 ![0] bcast_S3200000_S3200000x1_0 v (ix2 e (0 : Fin 1)) = v (ix1 e) :=
  broadcastInDim_apply _ _ _ _ (ix1 e) (fun a => by match a with | ⟨0, _⟩ => rfl)

/-- The repeated bias reads the column's entry in every row. -/
theorem tailBias_apply (b : S10.Idx → EReal) (i : Fin 100000) (j : Fin 10) : tailBias b (ix2 i j) = b (ix1 j) := by
  unfold tailBias
  rw [broadcastInDim_apply _ _ _ (ix2 i j) (ix2 (0 : Fin 1) j) (fun a => by match a with | ⟨0, _⟩ => rfl | ⟨1, _⟩ => rfl)]
  exact broadcastInDim_apply _ _ _ _ (ix1 j) (fun a => by match a with | ⟨0, _⟩ => rfl)

/-- The adjusted source word of edge e: the comparison with zero, the sum with the node count and the choice are
    the wrap of the word. -/
theorem tailWrap_apply (row : S3200000.Idx → BitVec 32) (e : Fin 3200000) :
    tailWrap row (ix1 e) = Cert.Gcn.wrap (row (ix1 e)) := rfl

/-- The looked-up row of edge e at column q: the scaled features of the node the source word looks up. -/
theorem tailGathered_apply (hh : S100000x20.Idx → EReal) (dv : S100000.Idx → EReal) (row : S3200000.Idx → BitVec 32)
    (e : Fin 3200000) (q : Fin 20) :
    tailGathered hh dv row (ix2 e q)
      = hh (ix2 (Cert.Gcn.node (row (ix1 e))) q) * dv (ix1 (Cert.Gcn.node (row (ix1 e)))) := by
  unfold tailGathered
  show Host.gather (RowGather.rowDims 100000 3200000 20 gather_S100000x20_S3200000x1_S3200000x20_1_0_n_n_0_1_120_wf)
    (tailScaled hh dv) _ (ix2 e q) = _
  rw [RowGather.rowGather_apply (by decide : 0 < 100000), tailIdx_apply, tailWrap_apply, tailScaled_apply]
  rfl

/-- The host's accumulating scatter of rows, at the extended reals, read at (i, j): the operand's entry plus the sum,
    over the updates whose row number read signed is i, of the update's entry in column j. -/
theorem tail_scatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Host.scatterAdd (F := Ideal) (φ := .f32) (RowScatter.rowDims N E D wf) x idx upd (ix2 i j)
      = x (ix2 i j) + ∑ e ∈ Finset.univ.filter (fun e : Fin E => (idx (ix2 e (0 : Fin 1))).toInt = (i.val : Int)), upd (ix2 e j) :=
  RowScatter.rowScatterAdd_apply wf x idx upd i j

/-- The sums at (i, q): zero plus, over the edges whose target word lands at i, the looked-up rows' entries. -/
theorem tailSummed_apply (hh : S100000x20.Idx → EReal) (dv : S100000.Idx → EReal) (row col : S3200000.Idx → BitVec 32)
    (i : Fin 100000) (q : Fin 20) :
    tailSummed hh dv row col (ix2 i q)
      = 0 + ∑ e ∈ Finset.univ.filter (fun e : Fin 3200000 => Cert.Gcn.lands (col (ix1 e)) i),
          hh (ix2 (Cert.Gcn.node (row (ix1 e))) q) * dv (ix1 (Cert.Gcn.node (row (ix1 e)))) := by
  unfold tailSummed
  rw [show scatter_S100000x20_S3200000x1_S3200000x20_1_0_0_1
      = RowScatter.rowDims 100000 3200000 20 scatter_S100000x20_S3200000x1_S3200000x20_1_0_0_1_wf from rfl]
  rw [tail_scatterAdd_apply]
  refine congrArg₂ (fun s t : EReal => s + t) ?_ ?_
  · rw [broadcastInDim_apply _ _ _ (ix2 i q) ix0 (fun a => a.elim0), constant_apply]
    exact Ideal.ofBits_zero_f32
  · refine Finset.sum_congr (Finset.filter_congr fun e _ => ?_) (fun e _ => tailGathered_apply hh dv row e q)
    rw [tailIdx_apply]
    exact Iff.rfl

/-- Both heads at (i, q), before the biases. -/
theorem tailBoth_apply (hh : S100000x20.Idx → EReal) (dv : S100000.Idx → EReal) (row col : S3200000.Idx → BitVec 32)
    (i : Fin 100000) (q : Fin 20) :
    tailBoth hh dv row col (ix2 i q)
      = dv (ix1 i) * ((0 + ∑ e ∈ Finset.univ.filter (fun e : Fin 3200000 => Cert.Gcn.lands (col (ix1 e)) i),
          hh (ix2 (Cert.Gcn.node (row (ix1 e))) q) * dv (ix1 (Cert.Gcn.node (row (ix1 e))))) + hh (ix2 i q) * dv (ix1 i)) := by
  unfold tailBoth
  rw [mulf_apply, addf_apply, tailCols_apply, tailSummed_apply, tailScaled_apply]

/-! ## The two outputs at an index -/

variable (W : Valuation τ sig (Elt Ideal))

/-- The buffers the line starts from, read at an index: the nodes' factors, the region's result, the source and
    target words, the two biases. -/
abbrev tailDv (i : Fin 100000) : EReal := (W (Proc.devRef .tc main_v12) : S100000.Idx → EReal) (ix1 i)
abbrev tailH (i : Fin 100000) (q : Fin 20) : EReal := (W (Proc.devRef .tc main_v14) : S100000x20.Idx → EReal) (ix2 i q)
abbrev tailRow (e : Fin 3200000) : BitVec 32 := (W (Proc.devRef .tc main_v1) : S3200000.Idx → BitVec 32) (ix1 e)
abbrev tailCol (e : Fin 3200000) : BitVec 32 := (W (Proc.devRef .tc main_v3) : S3200000.Idx → BitVec 32) (ix1 e)
abbrev tailB3 (j : Fin 10) : EReal := (W (Proc.devRef .tc main_arg3) : S10.Idx → EReal) (ix1 j)
abbrev tailB5 (j : Fin 10) : EReal := (W (Proc.devRef .tc main_arg5) : S10.Idx → EReal) (ix1 j)

/-- THE FIRST OUTPUT at (i, j), over any contents the line starts from: node i's factor times (zero plus the sum,
    over the edges landing at i, of the source node's feature j times its factor, plus node i's own feature times
    its factor), plus the first bias. -/
theorem tail_mu (i : Fin 100000) (j : Fin 10) :
    (StableHlo.after hostOps1 W (Proc.devRef .tc main_v35) : S100000x10.Idx → EReal) (ix2 i j)
      = tailDv W i
          * ((0 + ∑ e ∈ Finset.univ.filter (fun e : Fin 3200000 => Cert.Gcn.lands (tailCol W e) i),
              tailH W (Cert.Gcn.node (tailRow W e)) (⟨j.val, by omega⟩ : Fin 20) * tailDv W (Cert.Gcn.node (tailRow W e)))
            + tailH W i (⟨j.val, by omega⟩ : Fin 20) * tailDv W i)
        + tailB3 W j := by
  rw [tail_v35]
  unfold tailMu
  rw [addf_apply, slice2_axis1_apply 0 _ _ i j (⟨j.val, by omega⟩ : Fin 20) (Nat.zero_add _).symm, tailBoth_apply,
    tailBias_apply]

/-- THE SECOND OUTPUT at (i, j): the same with feature j + 10 and the second bias. -/
theorem tail_logstd (i : Fin 100000) (j : Fin 10) :
    (StableHlo.after hostOps1 W (Proc.devRef .tc main_v39) : S100000x10.Idx → EReal) (ix2 i j)
      = tailDv W i
          * ((0 + ∑ e ∈ Finset.univ.filter (fun e : Fin 3200000 => Cert.Gcn.lands (tailCol W e) i),
              tailH W (Cert.Gcn.node (tailRow W e)) (⟨j.val + 10, by omega⟩ : Fin 20) * tailDv W (Cert.Gcn.node (tailRow W e)))
            + tailH W i (⟨j.val + 10, by omega⟩ : Fin 20) * tailDv W i)
        + tailB5 W j := by
  rw [tail_v39]
  unfold tailLogstd
  rw [addf_apply, slice2_axis1_apply 10 _ _ i j (⟨j.val + 10, by omega⟩ : Fin 20) (Nat.add_comm _ _), tailBoth_apply,
    tailBias_apply]

end Cert.KernelIdeal.Hand

end
-- ==== Proof.KiLayer.lean ====
/-
  The idealized kernel program's results are the layer with the scaling factored out of the edge sum: the product
  array the region leaves is x · [W₁ | W₂], and the host lines after it scale, gather, add up and scale again.
-/
import proofs.«168765_j85907935854601_2_alg».proof.Proof.KiValue
import proofs.«168765_j85907935854601_2_alg».proof.Proof.KiFinal
import proofs.«168765_j85907935854601_2_alg».proof.Proof.KiHostPre
import proofs.«168765_j85907935854601_2_alg».proof.Proof.KiHostTail
import proofs.«168765_j85907935854601_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The product array's columns -/

theorem hArr_apply (x : S100000x256.Idx → EReal) (w : S256x20.Idx → EReal) (i : Fin 100000) (q : Fin 20) :
    hArr x w (ix2 i q) = ∑ k : Fin 256, x (ix2 i k) * w (ix2 k q) := rfl

/-- Column j of the product array is the linear transform by the first weight matrix, -/
theorem hArr_left (c : Dev nD) (i : Fin 100000) (j : Fin 10) :
    hArr (V m c main_arg0) (V m c main_v13) (ix2 i (⟨j.val, by omega⟩ : Fin 20))
      = Cert.Gcn.lin (m ((c : Thread nD τ).loc main_arg0)) (m ((c : Thread nD τ).loc main_arg2)) i j := by
  rw [hArr_apply]
  unfold Cert.Gcn.lin
  refine Finset.sum_congr rfl fun k _ => ?_
  rw [pre_w_left m c k j, V_main_arg0 m c]

/-- and column 10 + j by the second. -/
theorem hArr_right (c : Dev nD) (i : Fin 100000) (j : Fin 10) :
    hArr (V m c main_arg0) (V m c main_v13) (ix2 i (⟨j.val + 10, by omega⟩ : Fin 20))
      = Cert.Gcn.lin (m ((c : Thread nD τ).loc main_arg0)) (m ((c : Thread nD τ).loc main_arg4)) i j := by
  rw [hArr_apply]
  unfold Cert.Gcn.lin
  refine Finset.sum_congr rfl fun k _ => ?_
  rw [pre_w_right m c k j, V_main_arg0 m c]

/-! ## The two heads over any contents, read at an entry -/

theorem tailMu_apply (hh : S100000x20.Idx → EReal) (dv : S100000.Idx → EReal) (row col : S3200000.Idx → BitVec 32)
    (b : S10.Idx → EReal) (i : Fin 100000) (j : Fin 10) :
    tailMu hh dv row col b (ix2 i j)
      = dv (ix1 i) * ((0 + ∑ e ∈ Finset.univ.filter (fun e : Fin 3200000 => Cert.Gcn.lands (col (ix1 e)) i),
          hh (ix2 (Cert.Gcn.node (row (ix1 e))) (⟨j.val, by omega⟩ : Fin 20)) * dv (ix1 (Cert.Gcn.node (row (ix1 e)))))
          + hh (ix2 i (⟨j.val, by omega⟩ : Fin 20)) * dv (ix1 i)) + b (ix1 j) := by
  unfold tailMu
  rw [addf_apply, slice2_axis1_apply 0 _ _ i j (⟨j.val, by omega⟩ : Fin 20) (Nat.zero_add _).symm, tailBoth_apply,
    tailBias_apply]

theorem tailLogstd_apply (hh : S100000x20.Idx → EReal) (dv : S100000.Idx → EReal) (row col : S3200000.Idx → BitVec 32)
    (b : S10.Idx → EReal) (i : Fin 100000) (j : Fin 10) :
    tailLogstd hh dv row col b (ix2 i j)
      = dv (ix1 i) * ((0 + ∑ e ∈ Finset.univ.filter (fun e : Fin 3200000 => Cert.Gcn.lands (col (ix1 e)) i),
          hh (ix2 (Cert.Gcn.node (row (ix1 e))) (⟨j.val + 10, by omega⟩ : Fin 20)) * dv (ix1 (Cert.Gcn.node (row (ix1 e)))))
          + hh (ix2 i (⟨j.val + 10, by omega⟩ : Fin 20)) * dv (ix1 i)) + b (ix1 j) := by
  unfold tailLogstd
  rw [addf_apply, slice2_axis1_apply 10 _ _ i j (⟨j.val + 10, by omega⟩ : Fin 20) (Nat.add_comm _ _), tailBoth_apply,
    tailBias_apply]

/-! ## The two results -/

/-- The first result: the layer's first head. -/
theorem value_mu (c : Dev nD) :
    (StableHlo.after hostOps1 (Wt m c) (Proc.devRef .tc main_v35) : S100000x10.Idx → EReal)
      = Cert.Gcn.layerK (m ((c : Thread nD τ).loc main_arg0)) (m ((c : Thread nD τ).loc main_arg1))
          (m ((c : Thread nD τ).loc main_arg2)) (m ((c : Thread nD τ).loc main_arg3)) := by
  funext o
  obtain ⟨i, j, rfl⟩ : ∃ (i : Fin 100000) (j : Fin 10), o = ix2 i j := ⟨o 0, o 1, eq_ix2 o⟩
  rw [tail_v35 (Wt m c), Wt_v14, Wt_v12, Wt_v1, Wt_v3, Wt_arg3, final_h, tailMu_apply]
  simp only [pre_dinv m c, pre_row m c, pre_col m c, hArr_left m c]
  rfl

/-- The second result: the layer's second head. -/
theorem value_logstd (c : Dev nD) :
    (StableHlo.after hostOps1 (Wt m c) (Proc.devRef .tc main_v39) : S100000x10.Idx → EReal)
      = Cert.Gcn.layerK (m ((c : Thread nD τ).loc main_arg0)) (m ((c : Thread nD τ).loc main_arg1))
          (m ((c : Thread nD τ).loc main_arg4)) (m ((c : Thread nD τ).loc main_arg5)) := by
  funext o
  obtain ⟨i, j, rfl⟩ : ∃ (i : Fin 100000) (j : Fin 10), o = ix2 i j := ⟨o 0, o 1, eq_ix2 o⟩
  rw [tail_v39 (Wt m c), Wt_v14, Wt_v12, Wt_v1, Wt_v3, Wt_arg5, final_h, tailLogstd_apply]
  simp only [pre_dinv m c, pre_row m c, pre_col m c, hArr_right m c]
  rfl

/-- The idealized kernel program runs to the end, its two results the layer's two heads and its arguments as they
    were. -/
theorem run_layer : θ_run defs (onTc (τ := τ) (main (F := Ideal))) ⟨m, fun _ => 0, ρ⟩ (fun r => ∀ c : Dev nD,
      r.2.mem ((c.tc : Thread nD τ).loc main_v35) = Cert.Gcn.layerK (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v39) = Cert.Gcn.layerK (m ((c.tc : Thread nD τ).loc main_arg0))
          (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (value_mu m c), (h c).2.1.trans (value_logstd m c), (h c).2.2⟩)
    (run_named m ρ)

end Cert.KernelIdeal.Hand

end
-- ==== Proof.RefRead.lean ====
import proofs.«168765_j85907935854601_2_alg».proof.Proof.Gen.ReferenceIdeal.Read
-- ==== Proof.RefIndex.lean ====
/-
  Sums over index sets by coordinates, an accumulating scatter read at an entry, and a lookup in a vector.

  A sum over the rank-1 index set of extent n is the sum over 0 … n − 1; a sum over the first m + n numbers of the
  terms that satisfy a condition splits into the part below m and the part from m on. An accumulating scatter of
  per-row updates, read at entry i (or (i, j)), is the operand's entry plus the sum, over the updates e whose row
  number read signed is i, of the update e (or (e, j)). A lookup `x[idx]` of a vector x : [N] at row numbers
  [E, 1], read at e, is x at the row number read signed and clamped into 0 … N − 1.
-/
import Idealize.ShloMosaic.Lib.ValueIdx
import proofs.«168765_j85907935854601_2_alg».proof.Proof.LibRowScatter
import proofs.«168765_j85907935854601_2_alg».proof.Proof.LibRowGather

noncomputable section

open scoped BigOperators

namespace Cert.ReferenceIdeal.RefValue

open Idealize.ShloMosaic Idealize.ShloMosaic.ValueIdx

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The terms below m + n that satisfy a condition: those below m, then those from m on. -/
theorem sum_filter_split {M : Type*} [AddCommMonoid M] {m n N : Nat} (h : m + n = N) (P : Fin N → Prop)
    [DecidablePred P] (f : Fin N → M) :
    ∑ j ∈ Finset.univ.filter P, f j
      = (∑ e ∈ Finset.univ.filter (fun e : Fin m => P ⟨e.val, by omega⟩), f ⟨e.val, by omega⟩)
        + ∑ k ∈ Finset.univ.filter (fun k : Fin n => P ⟨m + k.val, by omega⟩), f ⟨m + k.val, by omega⟩ := by
  subst h
  rw [Finset.sum_filter, Fin.sum_univ_add, Finset.sum_filter, Finset.sum_filter]
  rfl

section Scatter

variable {N E D w : Nat}

/-- An accumulating scatter into a vector, read at entry i. -/
theorem vecScatterAdd_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (RowScatter.vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  exact if_congr (RowScatter.vec_resultIdx_iff wf idx e i) rfl rfl

/-- An accumulating scatter of rows into a table, read at entry (i, j). -/
theorem rowScatterAdd_apply (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (RowScatter.rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases he : (idx (ix2 e (0 : Fin 1))).toInt = (i.val : Int)
  · rw [if_pos he]
    rw [Finset.sum_eq_single j]
    · rw [if_pos ((RowScatter.row_resultIdx_iff wf idx e j i j).mpr ⟨he, rfl⟩)]
    · intro j' _ hj'
      rw [if_neg (fun h => hj' ((RowScatter.row_resultIdx_iff wf idx e j' i j).mp h).2)]
    · intro h; exact absurd (Finset.mem_univ j) h
  · rw [if_neg he]
    refine Finset.sum_eq_zero fun j' _ => ?_
    rw [if_neg (fun h => he ((RowScatter.row_resultIdx_iff wf idx e j' i j).mp h).1)]

end Scatter

section Take

variable {α : Type}

/-- The dimension numbers of a lookup in a vector: operand `[N]`, row numbers `[E, 1]`, result `[E]`. -/
abbrev vecTakeDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The lookup read at e: the vector at the selected row. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecTakeDims N E wf) x idx (ix1 e) = x (ix1 (RowGather.rowOf hN (idx (ix2 e (0 : Fin 1))))) := by
  unfold Host.gather
  congr 1
  funext a
  obtain rfl : a = 0 := Subsingleton.elim _ _
  refine Fin.ext ?_
  show (vecTakeDims N E wf).start (ix1 e) idx 0 + (vecTakeDims N E wf).batchCoord (ix1 e) 0
    + (vecTakeDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N E wf).startIndexMap from List.mem_singleton.mpr rfl)]
  have hsi : (vecTakeDims N E wf).siIdx (ix1 e) ⟨List.idxOf (0 : Fin 1) (vecTakeDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Take

end Cert.ReferenceIdeal.RefValue

end
-- ==== Proof.RefWords.lean ====
/-
  The reference's index words, read one at a time.

  The source and target words of the 3300000 messages are the edge list's two rows followed by the node numbers
  0 … 99999 (each node's own loop). Entry e of a joined list is the edge word for e below 3200000 and the number
  e − 3200000 from there on. A node number, read signed, is itself; it is not negative, so wrapping leaves it
  alone, and looked up as a row it selects that node. Each of the four wrapped copies of a list (a word below zero
  has 100000 added) is the wrap of the list's word.
-/
import proofs.«168765_j85907935854601_2_alg».proof.Proof.RefRead
import proofs.«168765_j85907935854601_2_alg».proof.Proof.Spec
import proofs.«168765_j85907935854601_2_alg».proof.Proof.RefIndex

noncomputable section

open scoped BigOperators

namespace Cert.ReferenceIdeal.RefValue

open Cert.ReferenceIdeal Cert.ReferenceIdeal.Gen Cert.ReferenceIdeal.Read Cert.Gcn Idealize.ShloMosaic Idealize.ShloMosaic.ValueIdx

/-- The edge list's contents. -/
abbrev EI : Type := (⟨S2x3200000, .i32⟩ : BufTy).Contents (Elt Ideal)

/-- A number below 100000 as a 32-bit word, read signed, is the number. -/
theorem toInt_ofNat_small (k : Nat) (hk : k < 100000) : (BitVec.ofNat 32 k).toInt = (k : Int) := by
  have h1 : (BitVec.ofNat 32 k).toNat = k := by
    rw [BitVec.toNat_ofNat]; exact Nat.mod_eq_of_lt (lt_of_lt_of_le hk (by norm_num))
  rw [BitVec.toInt_eq_toNat_of_lt (by rw [h1]; have : (2 : Nat) ^ 32 = 4294967296 := by norm_num
                                      omega), h1]

/-- Wrapping leaves a node number alone. -/
theorem wrap_ofNat (k : Nat) (hk : k < 100000) : wrap (BitVec.ofNat 32 k) = BitVec.ofNat 32 k := by
  have hs : (BitVec.ofNat 32 k).slt 0#32 = false := by simp [BitVec.slt, toInt_ofNat_small k hk]
  unfold wrap IntOp.cmpi
  simp only [hs]
  exact select_zero _ _

/-- A node number looks up its own node. -/
theorem node_ofNat (k : Fin 100000) : node (BitVec.ofNat 32 k.val) = k := by
  unfold node
  rw [wrap_ofNat k.val k.isLt]
  refine Fin.ext ?_
  show min (BitVec.ofNat 32 k.val).toInt.toNat (100000 - 1) = k.val
  rw [toInt_ofNat_small k.val k.isLt]
  have := k.isLt
  simp only [Int.toNat_natCast]
  omega

/-- A node number lands at node i exactly when it is i. -/
theorem lands_ofNat (k i : Fin 100000) : lands (BitVec.ofNat 32 k.val) i ↔ k = i := by
  unfold lands
  rw [toInt_ofNat_small k.val k.isLt]
  constructor
  · intro h; exact Fin.ext (by omega)
  · rintro rfl; rfl

/-- The joined target words below 3200000: the edge list's row 1. -/
theorem v6_edge (x1 : EI) (e : Fin 3200000) :
    val_main_v6 (F := Ideal) x1 (ix1 (⟨e.val, by have := e.isLt; omega⟩ : Fin 3300000)) = colW x1 e := by
  unfold val_main_v6
  rw [concatenate_pair_apply_left (t := S3300000) (s₁ := S3200000) (s₂ := S100000) (0 : Fin 1) _ _ _
    (ix1 (⟨e.val, by have := e.isLt; omega⟩ : Fin 3300000)) rfl (ix1 e) (fun b => by match b with | ⟨0, _⟩ => rfl)]
  rw [val_main_v5_apply, val_main_v4_apply]
  unfold colW
  congr 1
  funext a; refine Fin.ext ?_
  match a with
  | ⟨0, _⟩ => rfl
  | ⟨1, _⟩ => show e.val % 3200000 = e.val; have := e.isLt; omega

/-- The joined target words from 3200000 on: the node numbers. -/
theorem v6_loop (x1 : EI) (k : Fin 100000) :
    val_main_v6 (F := Ideal) x1 (ix1 (⟨3200000 + k.val, by have := k.isLt; omega⟩ : Fin 3300000)) = BitVec.ofNat 32 k.val := by
  unfold val_main_v6
  rw [concatenate_pair_apply_right (t := S3300000) (s₁ := S3200000) (s₂ := S100000) (0 : Fin 1) _ _ _
    (ix1 (⟨3200000 + k.val, by have := k.isLt; omega⟩ : Fin 3300000)) rfl rfl (ix1 k)
    (fun b hb => absurd (Subsingleton.elim _ _) hb) (by show k.val + 3200000 = 3200000 + k.val; omega)]
  rfl

/-- The joined source words below 3200000: the edge list's row 0. -/
theorem v3_edge (x1 : EI) (e : Fin 3200000) :
    val_main_v3 (F := Ideal) x1 (ix1 (⟨e.val, by have := e.isLt; omega⟩ : Fin 3300000)) = rowW x1 e := by
  unfold val_main_v3
  rw [concatenate_pair_apply_left (t := S3300000) (s₁ := S3200000) (s₂ := S100000) (0 : Fin 1) _ _ _
    (ix1 (⟨e.val, by have := e.isLt; omega⟩ : Fin 3300000)) rfl (ix1 e) (fun b => by match b with | ⟨0, _⟩ => rfl)]
  rw [val_main_v2_apply, val_main_v1_apply]
  unfold rowW
  congr 1
  funext a; refine Fin.ext ?_
  match a with
  | ⟨0, _⟩ => rfl
  | ⟨1, _⟩ => show e.val % 3200000 = e.val; have := e.isLt; omega

/-- The joined source words from 3200000 on: the node numbers. -/
theorem v3_loop (x1 : EI) (k : Fin 100000) :
    val_main_v3 (F := Ideal) x1 (ix1 (⟨3200000 + k.val, by have := k.isLt; omega⟩ : Fin 3300000)) = BitVec.ofNat 32 k.val := by
  unfold val_main_v3
  rw [concatenate_pair_apply_right (t := S3300000) (s₁ := S3200000) (s₂ := S100000) (0 : Fin 1) _ _ _
    (ix1 (⟨3200000 + k.val, by have := k.isLt; omega⟩ : Fin 3300000)) rfl rfl (ix1 k)
    (fun b hb => absurd (Subsingleton.elim _ _) hb) (by show k.val + 3200000 = 3200000 + k.val; omega)]
  rfl

/-- The wrapped source words (first copy). -/
theorem v18_wrap (x1 : EI) (i : S3300000.Idx) : val_main_v18 (F := Ideal) x1 i = wrap (val_main_v3 (F := Ideal) x1 i) := by
  rw [val_main_v18_apply, val_main_v15_apply, val_main_v17_apply, val_main_v14_apply, val_main_c_apply,
    val_main_v16_apply, val_main_c_2_apply]
  rfl

/-- The wrapped target words. -/
theorem v25_wrap (x1 : EI) (i : S3300000.Idx) : val_main_v25 (F := Ideal) x1 i = wrap (val_main_v6 (F := Ideal) x1 i) := by
  rw [val_main_v25_apply, val_main_v22_apply, val_main_v24_apply, val_main_v21_apply, val_main_c_3_apply,
    val_main_v23_apply, val_main_c_4_apply]
  rfl

/-- The wrapped source words (second copy). -/
theorem v34_wrap (x1 : EI) (i : S3300000.Idx) : val_main_v34 (F := Ideal) x1 i = wrap (val_main_v3 (F := Ideal) x1 i) := by
  rw [val_main_v34_apply, val_main_v31_apply, val_main_v33_apply, val_main_v30_apply, val_main_c_5_apply,
    val_main_v32_apply, val_main_c_6_apply]
  rfl

/-- The wrapped source words (third copy). -/
theorem v51_wrap (x1 : EI) (i : S3300000.Idx) : val_main_v51 (F := Ideal) x1 i = wrap (val_main_v3 (F := Ideal) x1 i) := by
  rw [val_main_v51_apply, val_main_v48_apply, val_main_v50_apply, val_main_v47_apply, val_main_c_8_apply,
    val_main_v49_apply, val_main_c_9_apply]
  rfl

end Cert.ReferenceIdeal.RefValue

end
-- ==== Proof.RefDegree.lean ====
/-
  The reference's degrees and scaling factors, read at a node.

  The degree vector is the accumulating scatter of 3300000 ones over the joined target words into a vector of zeros.
  At node i it is 0 plus the number of ones landing at i: those of the edges whose target word read signed is i, and
  exactly one of the node numbers, i itself. Its maximum with one, under the inverse square root, is the scaling
  factor of node i; the two lookups of the factor at the wrapped source and target words read it at the nodes those
  words select.
-/
import proofs.«168765_j85907935854601_2_alg».proof.Proof.RefWords
import proofs.«168765_j85907935854601_2_alg».proof.Proof.LibGcnLaws

noncomputable section

open scoped BigOperators

namespace Cert.ReferenceIdeal.RefValue

open Cert.ReferenceIdeal Cert.ReferenceIdeal.Gen Cert.ReferenceIdeal.Read Cert.Gcn Idealize.ShloMosaic Idealize.ShloMosaic.ValueIdx

/-- The host's accumulating scatter into a vector, on the extended reals, read at entry i. -/
theorem host_vecScatterAdd_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (RowScatter.vecDims N E wf) x idx upd (ix1 i)
      = x (ix1 i) + ∑ e ∈ Finset.univ.filter (fun e : Fin E => (idx (ix2 e (0 : Fin 1))).toInt = (i.val : Int)), upd (ix1 e) :=
  vecScatterAdd_apply wf x idx upd i

/-- The host's accumulating scatter of rows into a table, on the extended reals, read at entry (i, j). -/
theorem host_rowScatterAdd_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (i : Fin N) (j : Fin D) :
    Host.scatterAdd (RowScatter.rowDims N E D wf) x idx upd (ix2 i j)
      = x (ix2 i j) + ∑ e ∈ Finset.univ.filter (fun e : Fin E => (idx (ix2 e (0 : Fin 1))).toInt = (i.val : Int)), upd (ix2 e j) :=
  rowScatterAdd_apply wf x idx upd i j

/-- The scatter's row numbers at update e' are the joined target words. -/
theorem v9_at (x1 : EI) (e' : Fin 3300000) :
    val_main_v9 (F := Ideal) x1 (ix2 e' (0 : Fin 1)) = val_main_v6 (F := Ideal) x1 (ix1 e') := by
  rw [val_main_v9_apply]
  congr 1
  funext a
  match a with
  | ⟨0, _⟩ => rfl

/-- Every update is one. -/
theorem v7_at (e' : Fin 3300000) : val_main_v7 (F := Ideal) (ix1 e') = 1 := by
  rw [val_main_v7_apply, val_main_cst_apply]
  exact GcnLaws.ofBits_one_f32

/-- The vector scattered into is zero. -/
theorem v8_at (i : Fin 100000) : val_main_v8 (F := Ideal) (ix1 i) = 0 := by
  rw [val_main_v8_apply, val_main_cst_0_apply]
  exact Ideal.ofBits_zero_f32

/-- The edges whose target word read signed is i are the edges landing at i. -/
theorem sum_edges_into {M : Type*} [AddCommMonoid M] (x1 : EI) (i : Fin 100000) (f : Fin 3200000 → M) :
    ∑ e ∈ Finset.univ.filter (fun e : Fin 3200000 => (colW x1 e).toInt = (i.val : Int)), f e = ∑ e ∈ into x1 i, f e := by
  unfold into
  refine Finset.sum_congr ?_ (fun _ _ => rfl)
  ext e
  simp only [Finset.mem_filter, Finset.mem_univ, true_and]
  exact Iff.rfl

/-- Of the node numbers exactly i, read signed, is i. -/
theorem sum_loop_single {M : Type*} [AddCommMonoid M] (i : Fin 100000) (f : Fin 100000 → M) :
    ∑ k ∈ Finset.univ.filter (fun k : Fin 100000 => (BitVec.ofNat 32 k.val).toInt = (i.val : Int)), f k = f i := by
  rw [Finset.sum_filter, Finset.sum_eq_single i]
  · rw [if_pos (toInt_ofNat_small i.val i.isLt)]
  · intro k _ hk
    rw [if_neg (fun h : (BitVec.ofNat 32 k.val).toInt = (i.val : Int) => hk ((lands_ofNat k i).mp h))]
  · intro h; exact absurd (Finset.mem_univ i) h

/-- THE DEGREE of node i. -/
theorem v10_at (x1 : EI) (i : Fin 100000) : val_main_v10 (F := Ideal) x1 (ix1 i) = degR x1 i := by
  unfold val_main_v10
  rw [show scatter_S100000_S3300000x1_S3300000_n_0_0_1
    = RowScatter.vecDims 100000 3300000 scatter_S100000_S3300000x1_S3300000_n_0_0_1_wf from rfl]
  rw [host_vecScatterAdd_apply, v8_at]
  simp only [v9_at, v7_at]
  rw [sum_filter_split (m := 3200000) (n := 100000) rfl]
  simp only [v6_edge, v6_loop]
  rw [sum_edges_into, sum_loop_single]
  rfl

/-- THE SCALING FACTOR of node i. -/
theorem v13_at (x1 : EI) (i : Fin 100000) : val_main_v13 (F := Ideal) x1 (ix1 i) = dinvR x1 i := by
  rw [val_main_v13_apply, val_main_v12_apply, v10_at, val_main_v11_apply, val_main_cst_1_apply]
  simp only [Ideal.hostUnary_rsqrt_def, Ideal.maximumf_def, Ideal.ofBits_def, GcnLaws.ofBits_one_f32]
  rfl

/-- The first lookup's row numbers at e' are the wrapped source words. -/
theorem v19_at (x1 : EI) (e' : Fin 3300000) :
    val_main_v19 (F := Ideal) x1 (ix2 e' (0 : Fin 1)) = wrap (val_main_v3 (F := Ideal) x1 (ix1 e')) := by
  rw [val_main_v19_apply, v18_wrap]
  congr 2
  funext a
  match a with
  | ⟨0, _⟩ => rfl

/-- The second lookup's row numbers at e' are the wrapped target words. -/
theorem v26_at (x1 : EI) (e' : Fin 3300000) :
    val_main_v26 (F := Ideal) x1 (ix2 e' (0 : Fin 1)) = wrap (val_main_v6 (F := Ideal) x1 (ix1 e')) := by
  rw [val_main_v26_apply, v25_wrap]
  congr 2
  funext a
  match a with
  | ⟨0, _⟩ => rfl

/-- The factor looked up at the source word of message e'. -/
theorem v20_at (x1 : EI) (e' : Fin 3300000) :
    val_main_v20 (F := Ideal) x1 (ix1 e') = dinvR x1 (node (val_main_v3 (F := Ideal) x1 (ix1 e'))) := by
  unfold val_main_v20
  rw [show gather_S100000_S3300000x1_S3300000_n_0_n_n_0_1_1
    = vecTakeDims 100000 3300000 gather_S100000_S3300000x1_S3300000_n_0_n_n_0_1_1_wf from rfl]
  rw [vecTake_apply (by decide), v13_at, v19_at]
  rfl

/-- The factor looked up at the target word of message e'. -/
theorem v27_at (x1 : EI) (e' : Fin 3300000) :
    val_main_v27 (F := Ideal) x1 (ix1 e') = dinvR x1 (node (val_main_v6 (F := Ideal) x1 (ix1 e'))) := by
  unfold val_main_v27
  rw [show gather_S100000_S3300000x1_S3300000_n_0_n_n_0_1_1
    = vecTakeDims 100000 3300000 gather_S100000_S3300000x1_S3300000_n_0_n_n_0_1_1_wf from rfl]
  rw [vecTake_apply (by decide), v13_at, v26_at]
  rfl

/-- The scale of message e': the product of its two ends' factors. -/
theorem v28_at (x1 : EI) (e' : Fin 3300000) :
    val_main_v28 (F := Ideal) x1 (ix1 e')
      = dinvR x1 (node (val_main_v3 (F := Ideal) x1 (ix1 e'))) * dinvR x1 (node (val_main_v6 (F := Ideal) x1 (ix1 e'))) := by
  rw [val_main_v28_apply, v20_at, v27_at]
  rfl

end Cert.ReferenceIdeal.RefValue

end
-- ==== Proof.RefMessages.lean ====
/-
  The aggregated messages.

  Message e' of the 3300000 is row (source word of e') of x · W, looked up as a row number, scaled by the factors of
  its two ends. The accumulating scatter over the joined target words adds, at node i, the messages of the edges
  landing at i and the message of node i's own loop, whose two ends are i. This is the same for both weight
  matrices.
-/
import proofs.«168765_j85907935854601_2_alg».proof.Proof.RefDegree

noncomputable section

open scoped BigOperators

namespace Cert.ReferenceIdeal.RefValue

open Cert.ReferenceIdeal Cert.ReferenceIdeal.Gen Cert.ReferenceIdeal.Read Cert.Gcn Idealize.ShloMosaic Idealize.ShloMosaic.ValueIdx

/-- The features' contents. -/
abbrev X0 : Type := (⟨S100000x256, .f32⟩ : BufTy).Contents (Elt Ideal)
/-- A weight matrix's contents. -/
abbrev WT : Type := (⟨S256x10, .f32⟩ : BufTy).Contents (Elt Ideal)
/-- A bias vector's contents. -/
abbrev BT : Type := (⟨S10, .f32⟩ : BufTy).Contents (Elt Ideal)

/-- Message e' of the 3300000, column j: the transform at the node the source word selects, times the two ends'
    factors. -/
def msg (x0 : X0) (x1 : EI) (w : WT) (e' : Fin 3300000) (j : Fin 10) : EReal :=
  lin x0 w (node (val_main_v3 (F := Ideal) x1 (ix1 e'))) j
    * (dinvR x1 (node (val_main_v3 (F := Ideal) x1 (ix1 e'))) * dinvR x1 (node (val_main_v6 (F := Ideal) x1 (ix1 e'))))

/-- The messages landing at node i: the edges landing at i, then node i's own loop. -/
theorem msg_sum (x0 : X0) (x1 : EI) (w : WT) (i : Fin 100000) (j : Fin 10) :
    ∑ e' ∈ Finset.univ.filter (fun e' : Fin 3300000 => (val_main_v6 (F := Ideal) x1 (ix1 e')).toInt = (i.val : Int)), msg x0 x1 w e' j
      = (∑ e ∈ into x1 i, lin x0 w (node (rowW x1 e)) j * (dinvR x1 (node (rowW x1 e)) * dinvR x1 (node (colW x1 e))))
        + lin x0 w i j * (dinvR x1 i * dinvR x1 i) := by
  rw [sum_filter_split (m := 3200000) (n := 100000) rfl]
  unfold msg
  simp only [v6_edge, v6_loop, v3_edge, v3_loop, node_ofNat]
  rw [sum_edges_into, sum_loop_single]

end Cert.ReferenceIdeal.RefValue

end
-- ==== Proof.RefHeadMu.lean ====
/-
  One head of the layer (the first weight matrix and bias): the reference's result is the layer of the specification, evaluated with each
  message scaled by both ends' factors, at this head's weight matrix and bias.
-/
import proofs.«168765_j85907935854601_2_alg».proof.Proof.RefMessages

noncomputable section

open scoped BigOperators

namespace Cert.ReferenceIdeal.RefValue

open Cert.ReferenceIdeal Cert.ReferenceIdeal.Gen Cert.ReferenceIdeal.Read Cert.Gcn Idealize.ShloMosaic Idealize.ShloMosaic.ValueIdx

/-- The linear transform (first head): entry (i, j) of x · W. -/
theorem v29_at (x0 : X0) (w : WT) (i : Fin 100000) (j : Fin 10) :
    val_main_v29 (F := Ideal) x0 w (ix2 i j) = lin x0 w i j := by
  rw [val_main_v29_apply]
  unfold lin
  refine Finset.sum_congr rfl fun k _ => ?_
  rw [show lidx_main_v29 (ix2 i j) k = ix2 i k from funext fun a => by match a with | ⟨0, _⟩ => rfl | ⟨1, _⟩ => rfl,
    show ridx_main_v29 (ix2 i j) k = ix2 k j from funext fun a => by match a with | ⟨0, _⟩ => rfl | ⟨1, _⟩ => rfl]

/-- The row lookup's row numbers (first head) at e' are the wrapped source words. -/
theorem v35_at (x1 : EI) (e' : Fin 3300000) :
    val_main_v35 (F := Ideal) x1 (ix2 e' (0 : Fin 1)) = wrap (val_main_v3 (F := Ideal) x1 (ix1 e')) := by
  rw [val_main_v35_apply, v34_wrap]
  congr 2
  funext a
  match a with
  | ⟨0, _⟩ => rfl

/-- The looked-up row (first head) of message e': the transform at the node its source word selects. -/
theorem v36_at (x0 : X0) (x1 : EI) (w : WT) (e' : Fin 3300000) (j : Fin 10) :
    val_main_v36 (F := Ideal) x0 x1 w (ix2 e' j) = lin x0 w (node (val_main_v3 (F := Ideal) x1 (ix1 e'))) j := by
  unfold val_main_v36
  rw [show gather_S100000x10_S3300000x1_S3300000x10_1_0_n_n_0_1_110
    = RowGather.rowDims 100000 3300000 10 gather_S100000x10_S3300000x1_S3300000x10_1_0_n_n_0_1_110_wf from rfl]
  rw [RowGather.rowGather_apply (by decide), v29_at, v35_at]
  rfl

/-- The scale (first head) spread over the columns. -/
theorem v38_at (x1 : EI) (e' : Fin 3300000) (j : Fin 10) :
    val_main_v38 (F := Ideal) x1 (ix2 e' j) = val_main_v28 (F := Ideal) x1 (ix1 e') := by
  rw [val_main_v38_apply, val_main_v37_apply]
  congr 1
  funext a
  match a with
  | ⟨0, _⟩ => rfl

/-- Message e' (first head), column j. -/
theorem v39_at (x0 : X0) (x1 : EI) (w : WT) (e' : Fin 3300000) (j : Fin 10) :
    val_main_v39 (F := Ideal) x0 x1 w (ix2 e' j) = msg x0 x1 w e' j := by
  rw [val_main_v39_apply, v36_at, v38_at, v28_at]
  rfl

/-- The table scattered into (first head) is zero. -/
theorem v40_at (i : Fin 100000) (j : Fin 10) : val_main_v40 (F := Ideal) (ix2 i j) = 0 := by
  rw [val_main_v40_apply, val_main_cst_7_apply]
  exact Ideal.ofBits_zero_f32

/-- The scatter's row numbers (first head) at e' are the joined target words. -/
theorem v41_at (x1 : EI) (e' : Fin 3300000) :
    val_main_v41 (F := Ideal) x1 (ix2 e' (0 : Fin 1)) = val_main_v6 (F := Ideal) x1 (ix1 e') := by
  rw [val_main_v41_apply]
  congr 1
  funext a
  match a with
  | ⟨0, _⟩ => rfl

/-- The aggregated messages (first head) at node i, column j. -/
theorem v42_at (x0 : X0) (x1 : EI) (w : WT) (i : Fin 100000) (j : Fin 10) :
    val_main_v42 (F := Ideal) x0 x1 w (ix2 i j)
      = 0 + ((∑ e ∈ into x1 i, lin x0 w (node (rowW x1 e)) j * (dinvR x1 (node (rowW x1 e)) * dinvR x1 (node (colW x1 e))))
          + lin x0 w i j * (dinvR x1 i * dinvR x1 i)) := by
  unfold val_main_v42
  rw [show scatter_S100000x10_S3300000x1_S3300000x10_1_0_0_1
    = RowScatter.rowDims 100000 3300000 10 scatter_S100000x10_S3300000x1_S3300000x10_1_0_0_1_wf from rfl]
  rw [host_rowScatterAdd_apply, v40_at]
  simp only [v41_at, v39_at]
  rw [msg_sum]

/-- The bias (first head) spread over the rows. -/
theorem v44_at (b : BT) (i : Fin 100000) (j : Fin 10) : val_main_v44 (F := Ideal) b (ix2 i j) = b (ix1 j) := by
  rw [val_main_v44_apply, val_main_v43_apply]
  congr 1
  funext a
  match a with
  | ⟨0, _⟩ => rfl

/-- THE LAYER (first head): the reference's result is the layer evaluated with each message scaled by both ends' factors. -/
theorem v45_eq_layerR (x0 : X0) (x1 : EI) (w : WT) (b : BT) :
    val_main_v45 (F := Ideal) x0 x1 w b = layerR x0 x1 w b := by
  funext o
  obtain ⟨i, j, rfl⟩ : ∃ i j, o = ix2 i j := ⟨o 0, o 1, eq_ix2 o⟩
  rw [val_main_v45_apply, v42_at, v44_at]
  rfl

end Cert.ReferenceIdeal.RefValue

end
-- ==== Proof.RefHeadLs.lean ====
/-
  One head of the layer (the second weight matrix and bias): the reference's result is the layer of the specification, evaluated with each
  message scaled by both ends' factors, at this head's weight matrix and bias.
-/
import proofs.«168765_j85907935854601_2_alg».proof.Proof.RefMessages

noncomputable section

open scoped BigOperators

namespace Cert.ReferenceIdeal.RefValue

open Cert.ReferenceIdeal Cert.ReferenceIdeal.Gen Cert.ReferenceIdeal.Read Cert.Gcn Idealize.ShloMosaic Idealize.ShloMosaic.ValueIdx

/-- The linear transform (second head): entry (i, j) of x · W. -/
theorem v46_at (x0 : X0) (w : WT) (i : Fin 100000) (j : Fin 10) :
    val_main_v46 (F := Ideal) x0 w (ix2 i j) = lin x0 w i j := by
  rw [val_main_v46_apply]
  unfold lin
  refine Finset.sum_congr rfl fun k _ => ?_
  rw [show lidx_main_v46 (ix2 i j) k = ix2 i k from funext fun a => by match a with | ⟨0, _⟩ => rfl | ⟨1, _⟩ => rfl,
    show ridx_main_v46 (ix2 i j) k = ix2 k j from funext fun a => by match a with | ⟨0, _⟩ => rfl | ⟨1, _⟩ => rfl]

/-- The row lookup's row numbers (second head) at e' are the wrapped source words. -/
theorem v52_at (x1 : EI) (e' : Fin 3300000) :
    val_main_v52 (F := Ideal) x1 (ix2 e' (0 : Fin 1)) = wrap (val_main_v3 (F := Ideal) x1 (ix1 e')) := by
  rw [val_main_v52_apply, v51_wrap]
  congr 2
  funext a
  match a with
  | ⟨0, _⟩ => rfl

/-- The looked-up row (second head) of message e': the transform at the node its source word selects. -/
theorem v53_at (x0 : X0) (x1 : EI) (w : WT) (e' : Fin 3300000) (j : Fin 10) :
    val_main_v53 (F := Ideal) x0 x1 w (ix2 e' j) = lin x0 w (node (val_main_v3 (F := Ideal) x1 (ix1 e'))) j := by
  unfold val_main_v53
  rw [show gather_S100000x10_S3300000x1_S3300000x10_1_0_n_n_0_1_110
    = RowGather.rowDims 100000 3300000 10 gather_S100000x10_S3300000x1_S3300000x10_1_0_n_n_0_1_110_wf from rfl]
  rw [RowGather.rowGather_apply (by decide), v46_at, v52_at]
  rfl

/-- The scale (second head) spread over the columns. -/
theorem v55_at (x1 : EI) (e' : Fin 3300000) (j : Fin 10) :
    val_main_v55 (F := Ideal) x1 (ix2 e' j) = val_main_v28 (F := Ideal) x1 (ix1 e') := by
  rw [val_main_v55_apply, val_main_v54_apply]
  congr 1
  funext a
  match a with
  | ⟨0, _⟩ => rfl

/-- Message e' (second head), column j. -/
theorem v56_at (x0 : X0) (x1 : EI) (w : WT) (e' : Fin 3300000) (j : Fin 10) :
    val_main_v56 (F := Ideal) x0 x1 w (ix2 e' j) = msg x0 x1 w e' j := by
  rw [val_main_v56_apply, v53_at, v55_at, v28_at]
  rfl

/-- The table scattered into (second head) is zero. -/
theorem v57_at (i : Fin 100000) (j : Fin 10) : val_main_v57 (F := Ideal) (ix2 i j) = 0 := by
  rw [val_main_v57_apply, val_main_cst_10_apply]
  exact Ideal.ofBits_zero_f32

/-- The scatter's row numbers (second head) at e' are the joined target words. -/
theorem v58_at (x1 : EI) (e' : Fin 3300000) :
    val_main_v58 (F := Ideal) x1 (ix2 e' (0 : Fin 1)) = val_main_v6 (F := Ideal) x1 (ix1 e') := by
  rw [val_main_v58_apply]
  congr 1
  funext a
  match a with
  | ⟨0, _⟩ => rfl

/-- The aggregated messages (second head) at node i, column j. -/
theorem v59_at (x0 : X0) (x1 : EI) (w : WT) (i : Fin 100000) (j : Fin 10) :
    val_main_v59 (F := Ideal) x0 x1 w (ix2 i j)
      = 0 + ((∑ e ∈ into x1 i, lin x0 w (node (rowW x1 e)) j * (dinvR x1 (node (rowW x1 e)) * dinvR x1 (node (colW x1 e))))
          + lin x0 w i j * (dinvR x1 i * dinvR x1 i)) := by
  unfold val_main_v59
  rw [show scatter_S100000x10_S3300000x1_S3300000x10_1_0_0_1
    = RowScatter.rowDims 100000 3300000 10 scatter_S100000x10_S3300000x1_S3300000x10_1_0_0_1_wf from rfl]
  rw [host_rowScatterAdd_apply, v57_at]
  simp only [v58_at, v56_at]
  rw [msg_sum]

/-- The bias (second head) spread over the rows. -/
theorem v61_at (b : BT) (i : Fin 100000) (j : Fin 10) : val_main_v61 (F := Ideal) b (ix2 i j) = b (ix1 j) := by
  rw [val_main_v61_apply, val_main_v60_apply]
  congr 1
  funext a
  match a with
  | ⟨0, _⟩ => rfl

/-- THE LAYER (second head): the reference's result is the layer evaluated with each message scaled by both ends' factors. -/
theorem v62_eq_layerR (x0 : X0) (x1 : EI) (w : WT) (b : BT) :
    val_main_v62 (F := Ideal) x0 x1 w b = layerR x0 x1 w b := by
  funext o
  obtain ⟨i, j, rfl⟩ : ∃ i j, o = ix2 i j := ⟨o 0, o 1, eq_ix2 o⟩
  rw [val_main_v62_apply, v59_at, v61_at]
  rfl

end Cert.ReferenceIdeal.RefValue

end
-- ==== Proof.RefRun.lean ====
/-
  The reference's run, read as the layer of the specification.

  Every weakly fair execution of the reference terminates with its two results at the graph-convolution layer of the
  specification, evaluated with each message scaled by both ends' factors, of the arguments' launch contents (the first
  result at the first weight matrix and bias, the second at the second), and the arguments unchanged: the run of the
  generated module, whose results are the operations' composed terms, followed by the reading of those terms entry by
  entry.
-/
import proofs.«168765_j85907935854601_2_alg».proof.Proof.RefHeadMu
import proofs.«168765_j85907935854601_2_alg».proof.Proof.RefHeadLs

noncomputable section

namespace Cert.ReferenceIdeal.RefValue

open Cert.ReferenceIdeal Cert.ReferenceIdeal.Gen Cert.ReferenceIdeal.Read Cert.Gcn Idealize.ShloMosaic Idealize.ShloMosaic.TcCoe
  Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45) = layerR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v62) = layerR (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c).1.trans ((val_main_v45_eq m c).trans (v45_eq_layerR _ _ _ _)),
        (h c).2.1.trans ((val_main_v62_eq m c).trans (v62_eq_layerR _ _ _ _)),
        (h c).2.2⟩)
    (Cert.ReferenceIdeal.Value.run m ρ)

end Cert.ReferenceIdeal.RefValue

end
-- ==== Proof.LayerLaw.lean ====
/-
  The two evaluations of the graph-convolution layer agree for all arguments.

  Write d for the inverse square root of the degree, h for the linear transform, S for the set of edges landing
  at node i. The two degree sums differ only by the bracketing of 0 + s + 1, so both evaluations use the same d.
  The argument of the inverse square root is max (deg) 1 ≥ 1, so d i is a nonnegative extended real other
  than ⊤; a nonnegative finite factor distributes over sums of extended reals, whatever the summands are. For
  an edge e in S the target word read signed is i, so it is not negative and its looked-up node is i. Hence
      d i * ((0 + ∑ e ∈ S, h (src e) j * d (src e)) + h i j * d i)
        = ∑ e ∈ S, h (src e) j * (d (src e) * d i) + h i j * (d i * d i)
  by distributing d i and reordering products; no other factor is ever distributed or cancelled, so h may
  take any extended-real value.
-/
import proofs.«168765_j85907935854601_2_alg».proof.Proof.Spec
import proofs.«168765_j85907935854601_2_alg».proof.Proof.LibGcnLaws

noncomputable section

open scoped BigOperators

namespace Cert.Gcn

open Idealize.ShloMosaic Idealize.ShloMosaic.ValueIdx

/-- The two degree sums are the same sum bracketed differently. -/
theorem degK_eq_degR (ei : SEI.Idx → BitVec 32) (i : Fin 100000) : degK ei i = degR ei i := by
  unfold degK degR
  rw [add_assoc]

/-- Hence the two scaling factors are the same. -/
theorem dinvK_eq_dinvR (ei : SEI.Idx → BitVec 32) (i : Fin 100000) : dinvK ei i = dinvR ei i := by
  unfold dinvK dinvR
  rw [degK_eq_degR]

/-- The inverse square root of an extended real that is at least one is nonnegative and is not ⊤:
    at ⊤ it is 0, and at a real r ≥ 1 it is the real (√r)⁻¹ ≥ 0. -/
theorem rsqrt_nonneg_ne_top (y : EReal) (hy : 1 ≤ y) : 0 ≤ Ideal.rsqrt y ∧ Ideal.rsqrt y ≠ ⊤ := by
  induction y using EReal.rec with
  | bot => exact absurd hy (not_le.mpr (lt_trans EReal.bot_lt_zero zero_lt_one))
  | top => simp
  | coe r =>
    have hr : (1 : ℝ) ≤ r := by exact_mod_cast hy
    rw [Ideal.rsqrt_coe, if_neg (by linarith), if_neg (by linarith)]
    exact ⟨EReal.coe_nonneg.mpr (inv_nonneg.mpr (Real.sqrt_nonneg r)), EReal.coe_ne_top _⟩

/-- The scaling factor of a node is nonnegative. -/
theorem dinvR_nonneg (ei : SEI.Idx → BitVec 32) (i : Fin 100000) : 0 ≤ dinvR ei i :=
  (rsqrt_nonneg_ne_top _ (le_max_right _ _)).1

/-- The scaling factor of a node is not ⊤. -/
theorem dinvR_ne_top (ei : SEI.Idx → BitVec 32) (i : Fin 100000) : dinvR ei i ≠ ⊤ :=
  (rsqrt_nonneg_ne_top _ (le_max_right _ _)).2

/-- A word that lands at node i looks up node i: read signed it is i, which is not negative, so no node count
    is added, and i already lies in 0 … 99999, so the clamp leaves it. -/
theorem node_of_lands (b : BitVec 32) (i : Fin 100000) (h : lands b i) : node b = i := by
  unfold lands at h
  have hslt : b.slt 0#32 = false := by
    simp [BitVec.slt, h]
  have hw : wrap b = b := by
    unfold wrap Scalar.select IntOp.cmpi
    simp [hslt]
  unfold node
  rw [hw]
  refine Fin.ext ?_
  show min b.toInt.toNat (100000 - 1) = i.val
  rw [h]
  have := i.isLt
  omega

/-- One entry of the layer, before the bias is added: distributing the nonnegative finite factor d i over the
    sum of messages and the node's own term, and reordering each product, turns the factored evaluation into
    the one whose messages carry both ends' factors. -/
theorem layer_entry (x : SX.Idx → EReal) (ei : SEI.Idx → BitVec 32) (W : SW.Idx → EReal)
    (i : Fin 100000) (j : Fin 10) :
    dinvK ei i * ((0 + ∑ e ∈ into ei i, scaledK x ei W (node (rowW ei e)) j) + scaledK x ei W i j)
      = 0 + ((∑ e ∈ into ei i, lin x W (node (rowW ei e)) j
                * (dinvR ei (node (rowW ei e)) * dinvR ei (node (colW ei e))))
          + lin x W i j * (dinvR ei i * dinvR ei i)) := by
  unfold scaledK
  simp only [dinvK_eq_dinvR]
  have hd0 := dinvR_nonneg ei i
  have hdt := dinvR_ne_top ei i
  rw [zero_add, zero_add, EReal.left_distrib_of_nonneg_of_ne_top hd0 hdt,
    GcnLaws.mul_sum_of_nonneg_ne_top _ _ hd0 hdt]
  refine congrArg₂ (fun s t : EReal => s + t) ?_ ?_
  · refine Finset.sum_congr rfl ?_
    intro e he
    have hl : lands (colW ei e) i := (Finset.mem_filter.mp he).2
    rw [node_of_lands _ _ hl, mul_comm (dinvR ei i), mul_assoc]
  · rw [mul_comm (dinvR ei i), mul_assoc]

/-- THE LAYER LAW: the evaluation with the scaling factored out of the sum equals the evaluation with each
    message scaled by both ends' factors, for all arguments. -/
theorem layerK_eq_layerR (x : SX.Idx → EReal) (ei : SEI.Idx → BitVec 32) (W : SW.Idx → EReal)
    (b : SB.Idx → EReal) : layerK x ei W b = layerR x ei W b := by
  funext o
  unfold layerK layerR
  exact congrArg (fun t => t + b (ix1 (o 1))) (layer_entry x ei W (o 0) (o 1))

end Cert.Gcn

end
-- ==== Proof.lean ====
/-
  The claim for a two-headed graph-convolution layer over an edge list: a row-block product kernel followed by
  host gather / scatter-add lines, against a reference that scales every message by both ends' factors.

  The three programs run to the end and keep their arguments (the kernel's frames by running its body at each of the
  thirteen row blocks, the last of which overhangs the array; the reference's by its run). At the extended reals the
  kernel's two results are the layer with the scaling factored out of the edge sum, the reference's the layer with
  each message scaled at both ends; the two agree because the factor is nonnegative and finite, so it distributes over
  the sum. The idealization rewrote nothing, so its conjunct is trivial.
-/
import proofs.«168765_j85907935854601_2_alg».proof.Defs
import proofs.«168765_j85907935854601_2_alg».proof.Proof.Gen.Kernel
import proofs.«168765_j85907935854601_2_alg».proof.Proof.Gen.KernelIdeal
import proofs.«168765_j85907935854601_2_alg».proof.Proof.Gen.ReferenceIdeal
import proofs.«168765_j85907935854601_2_alg».proof.Proof.Gen.Pre_finite_inputs
import proofs.«168765_j85907935854601_2_alg».proof.Proof.KernelFrame
import proofs.«168765_j85907935854601_2_alg».proof.Proof.KiLayer
import proofs.«168765_j85907935854601_2_alg».proof.Proof.RefRun
import proofs.«168765_j85907935854601_2_alg».proof.Proof.LayerLaw
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_ideal : Cert.frame_KernelIdeal (hKernelIdeal := Cert.KernelIdeal.Gen.facts) (hPre_finite_inputs := Cert.Pre_finite_inputs.Gen.facts) :=
  fun m ρ _ => Cert.KernelIdeal.Hand.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end with the layer's two heads: the kernel's with the scaling factored out, the
    reference's with every message scaled at both ends, which are one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_layer m ρ, ?_⟩
  refine (θ_run Cert.ReferenceIdeal.defs _ _).mono (fun _ h c => ⟨(h c).1.trans ?_, (h c).2.1.trans ?_, (h c).2.2⟩)
    (Cert.ReferenceIdeal.RefValue.run m' ρ')
  · rw [(hagree c).1, (hagree c).2.1, (hagree c).2.2.1, (hagree c).2.2.2.1]
    exact (Cert.Gcn.layerK_eq_layerR _ _ _ _).symm
  · rw [(hagree c).1, (hagree c).2.1, (hagree c).2.2.2.2.1, (hagree c).2.2.2.2.2]
    exact (Cert.Gcn.layerK_eq_layerR _ _ _ _).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
